-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S5 : Shape := ⟨1, ![5]⟩
abbrev S256x128 : Shape := ⟨2, ![256, 128]⟩
abbrev S256 : Shape := ⟨1, ![256]⟩
abbrev S256x256 : Shape := ⟨2, ![256, 256]⟩
abbrev S4x256x256 : Shape := ⟨3, ![4, 256, 256]⟩
abbrev S4x256 : Shape := ⟨2, ![4, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S5 : S_.BroadcastsInDim S5 (![] : Fin 0 → Fin S5.rank)
  reducesTo_S5_S_d0 : S5.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S4x256x256 : S_.BroadcastsInDim S4x256x256 (![] : Fin 0 → Fin S4x256x256.rank)
  reducesTo_S4x256x256_S_d0_1_2 : S4x256x256.ReducesTo [0, 1, 2] S_
  bcast_S_S4x256 : S_.BroadcastsInDim S4x256 (![] : Fin 0 → Fin S4x256.rank)
  reducesTo_S4x256_S_d0_1 : S4x256.ReducesTo [0, 1] S_

variable [Facts]

def fn_part2 {F : FTy → Type} [FloatOps F] (main_arg8 : FVec F S4x256 .f32) (main_arg9 : FVec F S4x256x256 .f32) (main_arg10 : FVec F S4x256 .f32) (main_v33 : IVec S_ 1) : IVec S_ 1 :=
  let main_v34 : FVec F S4x256 .f32 := Host.absf main_arg8
  let main_cst_12 : FVec F S_ .f32 := constant S_ .f32 0x7F800000#32
  let main_v35 : FVec F S4x256 .f32 := broadcastInDim S4x256 ![] bcast_S_S4x256 main_cst_12
  let main_v36 : IVec S4x256 1 := cmpf .olt main_v34 main_v35
  let main_c_13 : IVec S_ 1 := constantI S_ 1 1#1
  let main_v37 : IVec S_ 1 := (fun x v => Host.reduce IntOp.andi x v reducesTo_S4x256_S_d0_1 h_S_) main_v36 main_c_13
  let main_v38 : IVec S_ 1 := andi main_v33 main_v37
  let main_v39 : FVec F S4x256x256 .f32 := Host.absf main_arg9
  let main_cst_14 : FVec F S_ .f32 := constant S_ .f32 0x7F800000#32
  let main_v40 : FVec F S4x256x256 .f32 := broadcastInDim S4x256x256 ![] bcast_S_S4x256x256 main_cst_14
  let main_v41 : IVec S4x256x256 1 := cmpf .olt main_v39 main_v40
  let main_c_15 : IVec S_ 1 := constantI S_ 1 1#1
  let main_v42 : IVec S_ 1 := (fun x v => Host.reduce IntOp.andi x v reducesTo_S4x256x256_S_d0_1_2 h_S_) main_v41 main_c_15
  let main_v43 : IVec S_ 1 := andi main_v38 main_v42
  let main_v44 : FVec F S4x256 .f32 := Host.absf main_arg10
  let main_cst_16 : FVec F S_ .f32 := constant S_ .f32 0x7F800000#32
  let main_v45 : FVec F S4x256 .f32 := broadcastInDim S4x256 ![] bcast_S_S4x256 main_cst_16
  let main_v46 : IVec S4x256 1 := cmpf .olt main_v44 main_v45
  let main_c_17 : IVec S_ 1 := constantI S_ 1 1#1
  let main_v47 : IVec S_ 1 := (fun x v => Host.reduce IntOp.andi x v reducesTo_S4x256_S_d0_1 h_S_) main_v46 main_c_17
  let main_v48 : IVec S_ 1 := andi main_v43 main_v47
  main_v48

def fn_part1 {F : FTy → Type} [FloatOps F] (main_arg5 : FVec F S256x256 .f32) (main_arg6 : FVec F S256 .f32) (main_arg7 : FVec F S4x256x256 .f32) (main_arg8 : FVec F S4x256 .f32) (main_arg9 : FVec F S4x256x256 .f32) (main_arg10 : FVec F S4x256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S4x256x256 .f32 := Host.absf main_arg7
  let main_cst_10 : FVec F S_ .f32 := constant S_ .f32 0x7F800000#32
  let main_v30 : FVec F S4x256x256 .f32 := broadcastInDim S4x256x256 ![] bcast_S_S4x256x256 main_cst_10
  let main_v31 : IVec S4x256x256 1 := cmpf .olt main_v29 main_v30
  let main_c_11 : IVec S_ 1 := constantI S_ 1 1#1
  let main_v32 : IVec S_ 1 := (fun x v => Host.reduce IntOp.andi x v reducesTo_S4x256x256_S_d0_1_2 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S5 .f32) (main_arg3 : FVec F S256x128 .f32) (main_arg4 : FVec F S256 .f32) (main_arg5 : FVec F S256x256 .f32) (main_arg6 : FVec F S256 .f32) (main_arg7 : FVec F S4x256x256 .f32) (main_arg8 : FVec F S4x256 .f32) (main_arg9 : FVec F S4x256x256 .f32) (main_arg10 : FVec F S4x256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S5 .f32 := Host.absf main_arg2
  let main_cst_0 : FVec F S_ .f32 := constant S_ .f32 0x7F800000#32
  let main_v5 : FVec F S5 .f32 := broadcastInDim S5 ![] bcast_S_S5 main_cst_0
  let main_v6 : IVec S5 1 := cmpf .olt main_v4 main_v5
  let main_c_1 : IVec S_ 1 := constantI S_ 1 1#1
  let main_v7 : IVec S_ 1 := (fun x v => Host.reduce IntOp.andi x v reducesTo_S5_S_d0 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S5 : Shape := ⟨1, ![5]⟩
abbrev S256x128 : Shape := ⟨2, ![256, 128]⟩
abbrev S256 : Shape := ⟨1, ![256]⟩
abbrev S256x256 : Shape := ⟨2, ![256, 256]⟩
abbrev S4x256x256 : Shape := ⟨3, ![4, 256, 256]⟩
abbrev S4x256 : Shape := ⟨2, ![4, 256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1 : Shape := ⟨1, ![1]⟩
abbrev S1x1 : Shape := ⟨2, ![1, 1]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S128x256 : Shape := ⟨2, ![128, 256]⟩
abbrev S800000x256 : Shape := ⟨2, ![800000, 256]⟩
abbrev S1x256x256 : Shape := ⟨3, ![1, 256, 256]⟩

abbrev nBuf : Space → Nat
  | .hbm => 142
  | .vmem => 55
  | .smem => 0
  | _ => 0

abbrev hbmTy0_0 (i : Nat) : BufTy := match i % 128 with
  | 0 => ⟨S50000x128, .f32⟩
  | 1 => ⟨S2x800000, .i32⟩
  | 2 => ⟨S5, .f32⟩
  | 3 => ⟨S256x128, .f32⟩
  | 4 => ⟨S256, .f32⟩
  | 5 => ⟨S256x256, .f32⟩
  | 6 => ⟨S256, .f32⟩
  | 7 => ⟨S4x256x256, .f32⟩
  | 8 => ⟨S4x256, .f32⟩
  | 9 => ⟨S4x256x256, .f32⟩
  | 10 => ⟨S4x256, .f32⟩
  | 11 => ⟨S1x800000, .i32⟩
  | 12 => ⟨S800000, .i32⟩
  | 13 => ⟨S1x800000, .i32⟩
  | 14 => ⟨S800000, .i32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x128, .f32⟩
  | 24 => ⟨S_, .f32⟩
  | 25 => ⟨S50000x128, .f32⟩
  | 26 => ⟨S800000x1, .i32⟩
  | 27 => ⟨S50000x128, .f32⟩
  | 28 => ⟨S1, .f32⟩
  | 29 => ⟨S_, .f32⟩
  | 30 => ⟨S1x1, .f32⟩
  | 31 => ⟨S1x256, .f32⟩
  | 32 => ⟨S1x256, .f32⟩
  | 33 => ⟨S50000x256, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x256, .f32⟩
  | 43 => ⟨S_, .f32⟩
  | 44 => ⟨S50000x256, .f32⟩
  | 45 => ⟨S800000x1, .i32⟩
  | 46 => ⟨S50000x256, .f32⟩
  | 47 => ⟨S1, .f32⟩
  | 48 => ⟨S_, .f32⟩
  | 49 => ⟨S1x1, .f32⟩
  | 50 => ⟨S1x256x256, .f32⟩
  | 51 => ⟨S256x256, .f32⟩
  | 52 => ⟨S1x256, .f32⟩
  | 53 => ⟨S256, .f32⟩
  | 54 => ⟨S1x256, .f32⟩
  | 55 => ⟨S1x256x256, .f32⟩
  | 56 => ⟨S256x256, .f32⟩
  | 57 => ⟨S1x256, .f32⟩
  | 58 => ⟨S256, .f32⟩
  | 59 => ⟨S1x256, .f32⟩
  | 60 => ⟨S50000x256, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x256, .f32⟩
  | 70 => ⟨S_, .f32⟩
  | 71 => ⟨S50000x256, .f32⟩
  | 72 => ⟨S800000x1, .i32⟩
  | 73 => ⟨S50000x256, .f32⟩
  | 74 => ⟨S1, .f32⟩
  | 75 => ⟨S_, .f32⟩
  | 76 => ⟨S1x1, .f32⟩
  | 77 => ⟨S1x256x256, .f32⟩
  | 78 => ⟨S256x256, .f32⟩
  | 79 => ⟨S1x256, .f32⟩
  | 80 => ⟨S256, .f32⟩
  | 81 => ⟨S1x256, .f32⟩
  | 82 => ⟨S1x256x256, .f32⟩
  | 83 => ⟨S256x256, .f32⟩
  | 84 => ⟨S1x256, .f32⟩
  | 85 => ⟨S256, .f32⟩
  | 86 => ⟨S1x256, .f32⟩
  | 87 => ⟨S50000x256, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x256, .f32⟩
  | 97 => ⟨S_, .f32⟩
  | 98 => ⟨S50000x256, .f32⟩
  | 99 => ⟨S800000x1, .i32⟩
  | 100 => ⟨S50000x256, .f32⟩
  | 101 => ⟨S1, .f32⟩
  | 102 => ⟨S_, .f32⟩
  | 103 => ⟨S1x1, .f32⟩
  | 104 => ⟨S1x256x256, .f32⟩
  | 105 => ⟨S256x256, .f32⟩
  | 106 => ⟨S1x256, .f32⟩
  | 107 => ⟨S256, .f32⟩
  | 108 => ⟨S1x256, .f32⟩
  | 109 => ⟨S1x256x256, .f32⟩
  | 110 => ⟨S256x256, .f32⟩
  | 111 => ⟨S1x256, .f32⟩
  | 112 => ⟨S256, .f32⟩
  | 113 => ⟨S1x256, .f32⟩
  | 114 => ⟨S50000x256, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000x256, .f32⟩
  | 124 => ⟨S_, .f32⟩
  | 125 => ⟨S50000x256, .f32⟩
  | 126 => ⟨S800000x1, .i32⟩
  | 127 => ⟨S50000x256, .f32⟩
  | _ => ⟨S50000x128, .f32⟩

abbrev hbmTy0_1 (i : Nat) : BufTy := match i % 128 with
  | 0 => ⟨S1, .f32⟩
  | 1 => ⟨S_, .f32⟩
  | 2 => ⟨S1x1, .f32⟩
  | 3 => ⟨S1x256x256, .f32⟩
  | 4 => ⟨S256x256, .f32⟩
  | 5 => ⟨S1x256, .f32⟩
  | 6 => ⟨S256, .f32⟩
  | 7 => ⟨S1x256, .f32⟩
  | 8 => ⟨S1x256x256, .f32⟩
  | 9 => ⟨S256x256, .f32⟩
  | 10 => ⟨S1x256, .f32⟩
  | 11 => ⟨S256, .f32⟩
  | 12 => ⟨S1x256, .f32⟩
  | 13 => ⟨S50000x256, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S1x1, .f32⟩
  | .local _ .vmem, ⟨5, _⟩ => ⟨S256x128, .f32⟩
  | .local _ .vmem, ⟨6, _⟩ => ⟨S1x256, .f32⟩
  | .local _ .vmem, ⟨7, _⟩ => ⟨S256x256, .f32⟩
  | .local _ .vmem, ⟨8, _⟩ => ⟨S1x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S1x1, .f32⟩
  | .local _ .vmem, ⟨16, _⟩ => ⟨S256x256, .f32⟩
  | .local _ .vmem, ⟨17, _⟩ => ⟨S1x256, .f32⟩
  | .local _ .vmem, ⟨18, _⟩ => ⟨S256x256, .f32⟩
  | .local _ .vmem, ⟨19, _⟩ => ⟨S1x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S1x1, .f32⟩
  | .local _ .vmem, ⟨27, _⟩ => ⟨S256x256, .f32⟩
  | .local _ .vmem, ⟨28, _⟩ => ⟨S1x256, .f32⟩
  | .local _ .vmem, ⟨29, _⟩ => ⟨S256x256, .f32⟩
  | .local _ .vmem, ⟨30, _⟩ => ⟨S1x256, .f32⟩
  | .local _ .vmem, ⟨31, _⟩ => ⟨S2000x256, .f32⟩
  | .local _ .vmem, ⟨32, _⟩ => ⟨S2000x256, .f32⟩
  | .local _ .vmem, ⟨33, _⟩ => ⟨S2000x256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S1x1, .f32⟩
  | .local _ .vmem, ⟨38, _⟩ => ⟨S256x256, .f32⟩
  | .local _ .vmem, ⟨39, _⟩ => ⟨S1x256, .f32⟩
  | .local _ .vmem, ⟨40, _⟩ => ⟨S256x256, .f32⟩
  | .local _ .vmem, ⟨41, _⟩ => ⟨S1x256, .f32⟩
  | .local _ .vmem, ⟨42, _⟩ => ⟨S2000x256, .f32⟩
  | .local _ .vmem, ⟨43, _⟩ => ⟨S2000x256, .f32⟩
  | .local _ .vmem, ⟨44, _⟩ => ⟨S2000x256, .f32⟩
  | .local _ .vmem, ⟨45, _⟩ => ⟨S2000x256, .f32⟩
  | .local _ .vmem, ⟨46, _⟩ => ⟨S2000x256, .f32⟩
  | .local _ .vmem, ⟨47, _⟩ => ⟨S2000x256, .f32⟩
  | .local _ .vmem, ⟨48, _⟩ => ⟨S1x1, .f32⟩
  | .local _ .vmem, ⟨49, _⟩ => ⟨S256x256, .f32⟩
  | .local _ .vmem, ⟨50, _⟩ => ⟨S1x256, .f32⟩
  | .local _ .vmem, ⟨51, _⟩ => ⟨S256x256, .f32⟩
  | .local _ .vmem, ⟨52, _⟩ => ⟨S1x256, .f32⟩
  | .local _ .vmem, ⟨53, _⟩ => ⟨S2000x256, .f32⟩
  | .local _ .vmem, ⟨54, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_1 : Ref sig .tc := ⟨.hbm, 34, rfl⟩
abbrev main_v20 : Ref sig .tc := ⟨.hbm, 35, rfl⟩
abbrev main_v21 : Ref sig .tc := ⟨.hbm, 36, rfl⟩
abbrev main_c_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_4 : Ref sig .tc := ⟨.hbm, 61, rfl⟩
abbrev main_v44 : Ref sig .tc := ⟨.hbm, 62, rfl⟩
abbrev main_v45 : Ref sig .tc := ⟨.hbm, 63, rfl⟩
abbrev main_c_5 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_6 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_c_7 : Ref sig .tc := ⟨.hbm, 88, rfl⟩
abbrev main_v68 : Ref sig .tc := ⟨.hbm, 89, rfl⟩
abbrev main_v69 : Ref sig .tc := ⟨.hbm, 90, rfl⟩
abbrev main_c_8 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_9 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_c_10 : Ref sig .tc := ⟨.hbm, 115, rfl⟩
abbrev main_v92 : Ref sig .tc := ⟨.hbm, 116, rfl⟩
abbrev main_v93 : Ref sig .tc := ⟨.hbm, 117, rfl⟩
abbrev main_c_11 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_cst_12 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg7_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg6_0 : Ref sig .tc := ⟨.vmem, 41, rfl⟩
abbrev cc3_stg7_0 : Ref sig .tc := ⟨.vmem, 42, rfl⟩
abbrev cc3_stg7_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg3_0 : Ref sig .tc := ⟨.vmem, 49, rfl⟩
abbrev cc4_stg4_0 : Ref sig .tc := ⟨.vmem, 50, rfl⟩
abbrev cc4_stg5_0 : Ref sig .tc := ⟨.vmem, 51, rfl⟩
abbrev cc4_stg6_0 : Ref sig .tc := ⟨.vmem, 52, rfl⟩
abbrev cc4_stg7_0 : Ref sig .tc := ⟨.vmem, 53, rfl⟩
abbrev cc4_stg7_1 : Ref sig .tc := ⟨.vmem, 54, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem7_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem6_0 : DmaSem sig := 41
abbrev cc3_sem7_0 : DmaSem sig := 42
abbrev cc3_sem7_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem3_0 : DmaSem sig := 49
abbrev cc4_sem4_0 : DmaSem sig := 50
abbrev cc4_sem5_0 : DmaSem sig := 51
abbrev cc4_sem6_0 : DmaSem sig := 52
abbrev cc4_sem7_0 : DmaSem sig := 53
abbrev cc4_sem7_1 : DmaSem sig := 54

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2000x256 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S2000x256 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S5_S1_0 : S5.Slices ![0] S1
  shapeCasts_S1_S_ : S1.ShapeCasts S_
  shapeCasts_S_S1x1 : S_.ShapeCasts S1x1
  shapeCasts_S256_S1x256 : S256.ShapeCasts S1x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2000x128_S2000x128_0_0 : ∀ a, (![0, 0] : Fin 2 → Nat) a + S2000x128.size a ≤ S2000x128.size a
  h_S2000x128 : 0 < S2000x128.numel
  broadcasts_S1x1_S2000x128 : S1x1.Broadcasts S2000x128
  shapeCasts_S2000x128_S2000x128 : S2000x128.ShapeCasts S2000x128
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  transposes_S256x128_p1_0_S128x256 : S256x128.Transposes [1, 0] S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  slices_S5_S1_1 : S5.Slices ![1] S1
  slices_S4x256x256_S1x256x256_0_0_0 : S4x256x256.Slices ![0, 0, 0] S1x256x256
  shapeCasts_S1x256x256_S256x256 : S1x256x256.ShapeCasts S256x256
  slices_S4x256_S1x256_0_0 : S4x256.Slices ![0, 0] S1x256
  shapeCasts_S1x256_S256 : S1x256.ShapeCasts S256
  shapeCasts_S2000x256_S2000x256 : S2000x256.ShapeCasts S2000x256
  broadcasts_S1x1_S2000x256 : S1x1.Broadcasts S2000x256
  shapeCasts_S256x256_S256x256 : S256x256.ShapeCasts S256x256
  slices_S5_S1_2 : S5.Slices ![2] S1
  slices_S4x256x256_S1x256x256_1_0_0 : S4x256x256.Slices ![1, 0, 0] S1x256x256
  slices_S4x256_S1x256_1_0 : S4x256.Slices ![1, 0] S1x256
  slices_S5_S1_3 : S5.Slices ![3] S1
  slices_S4x256x256_S1x256x256_2_0_0 : S4x256x256.Slices ![2, 0, 0] S1x256x256
  slices_S4x256_S1x256_2_0 : S4x256.Slices ![2, 0] S1x256
  slices_S5_S1_4 : S5.Slices ![4] S1
  slices_S4x256x256_S1x256x256_3_0_0 : S4x256x256.Slices ![3, 0, 0] S1x256x256
  slices_S4x256_S1x256_3_0 : S4x256.Slices ![3, 0] S1x256
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x256.size a ≤ S50000x256.size a
  hwx0_7 : ∀ i : grid0.Coords, EltTy.bits .f32 = 32 ∨ (Rect.block (s := S50000x256) S2000x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x256.size a ≤ S50000x256.size a
  hwx1_7 : ∀ i : grid1.Coords, EltTy.bits .f32 = 32 ∨ (Rect.block (s := S50000x256) S2000x256.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .f32 = 32 ∨ (Rect.block (s := S256x256) S256x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x256.size a ≤ S50000x256.size a
  hwx2_7 : ∀ i : grid2.Coords, EltTy.bits .f32 = 32 ∨ (Rect.block (s := S50000x256) S2000x256.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .f32 = 32 ∨ (Rect.block (s := S50000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x256.size a ≤ S256x256.size a
  hwx3_5 : ∀ i : grid3.Coords, EltTy.bits .f32 = 32 ∨ (Rect.block (s := S256x256) S256x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x256.size a ≤ S50000x256.size a
  hwx3_7 : ∀ i : grid3.Coords, EltTy.bits .f32 = 32 ∨ (Rect.block (s := S50000x256) S2000x256.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S50000x256.size a
  hwx4_1 : ∀ i : grid4.Coords, EltTy.bits .f32 = 32 ∨ (Rect.block (s := S50000x256) S2000x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x256.size a ≤ S256x256.size a
  hwx4_3 : ∀ i : grid4.Coords, EltTy.bits .f32 = 32 ∨ (Rect.block (s := S256x256) S256x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x256.size a ≤ S256x256.size a
  hwx4_5 : ∀ i : grid4.Coords, EltTy.bits .f32 = 32 ∨ (Rect.block (s := S256x256) S256x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x256.size a ≤ S50000x256.size a
  hwx4_7 : ∀ i : grid4.Coords, EltTy.bits .f32 = 32 ∨ (Rect.block (s := S50000x256) S2000x256.size (cc4_transform_7 i) (hinb4_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S2000x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v19) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v42) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v43) S2000x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v43) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v56) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v63) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v66) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v67) S2000x256.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v67) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v77) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v80) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v82) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v85) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v87) S256x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v90) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v91) S2000x256.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v91) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v101) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v104) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v106) S256x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v109) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v111) S256x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v114) S1x256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v115) S2000x256.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S5 : Shape := ⟨1, ![5]⟩
abbrev S256x128 : Shape := ⟨2, ![256, 128]⟩
abbrev S256 : Shape := ⟨1, ![256]⟩
abbrev S256x256 : Shape := ⟨2, ![256, 256]⟩
abbrev S4x256x256 : Shape := ⟨3, ![4, 256, 256]⟩
abbrev S4x256 : Shape := ⟨2, ![4, 256]⟩
abbrev S1x800000 : Shape := ⟨2, ![1, 800000]⟩
abbrev S800000 : Shape := ⟨1, ![800000]⟩
abbrev S1 : Shape := ⟨1, ![1]⟩
abbrev S_ : Shape := ⟨0, ![]⟩
abbrev S800000x1 : Shape := ⟨2, ![800000, 1]⟩
abbrev S800000x128 : Shape := ⟨2, ![800000, 128]⟩
abbrev S128x256 : Shape := ⟨2, ![128, 256]⟩
abbrev S50000x256 : Shape := ⟨2, ![50000, 256]⟩
abbrev S1x256 : Shape := ⟨2, ![1, 256]⟩
abbrev S1x256x256 : Shape := ⟨3, ![1, 256, 256]⟩
abbrev S800000x256 : Shape := ⟨2, ![800000, 256]⟩

abbrev nBuf : Space → Nat
  | .hbm => 227
  | .vmem => 0
  | .smem => 0
  | _ => 0

abbrev hbmTy0_0 (i : Nat) : BufTy := match i % 128 with
  | 0 => ⟨S50000x128, .f32⟩
  | 1 => ⟨S2x800000, .i32⟩
  | 2 => ⟨S5, .f32⟩
  | 3 => ⟨S256x128, .f32⟩
  | 4 => ⟨S256, .f32⟩
  | 5 => ⟨S256x256, .f32⟩
  | 6 => ⟨S256, .f32⟩
  | 7 => ⟨S4x256x256, .f32⟩
  | 8 => ⟨S4x256, .f32⟩
  | 9 => ⟨S4x256x256, .f32⟩
  | 10 => ⟨S4x256, .f32⟩
  | 11 => ⟨S1x800000, .i32⟩
  | 12 => ⟨S800000, .i32⟩
  | 13 => ⟨S1x800000, .i32⟩
  | 14 => ⟨S800000, .i32⟩
  | 15 => ⟨S1, .f32⟩
  | 16 => ⟨S_, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x128, .f32⟩
  | 26 => ⟨S_, .f32⟩
  | 27 => ⟨S50000x128, .f32⟩
  | 28 => ⟨S800000x1, .i32⟩
  | 29 => ⟨S50000x128, .f32⟩
  | 30 => ⟨S_, .f32⟩
  | 31 => ⟨S_, .f32⟩
  | 32 => ⟨S50000x128, .f32⟩
  | 33 => ⟨S50000x128, .f32⟩
  | 34 => ⟨S50000x128, .f32⟩
  | 35 => ⟨S128x256, .f32⟩
  | 36 => ⟨S50000x256, .f32⟩
  | 37 => ⟨S1x256, .f32⟩
  | 38 => ⟨S50000x256, .f32⟩
  | 39 => ⟨S50000x256, .f32⟩
  | 40 => ⟨S_, .f32⟩
  | 41 => ⟨S50000x256, .f32⟩
  | 42 => ⟨S50000x256, .f32⟩
  | 43 => ⟨S256x256, .f32⟩
  | 44 => ⟨S50000x256, .f32⟩
  | 45 => ⟨S1x256, .f32⟩
  | 46 => ⟨S50000x256, .f32⟩
  | 47 => ⟨S50000x256, .f32⟩
  | 48 => ⟨S_, .f32⟩
  | 49 => ⟨S50000x256, .f32⟩
  | 50 => ⟨S50000x256, .f32⟩
  | 51 => ⟨S1, .f32⟩
  | 52 => ⟨S_, .f32⟩
  | 53 => ⟨S1x256x256, .f32⟩
  | 54 => ⟨S256x256, .f32⟩
  | 55 => ⟨S1x256, .f32⟩
  | 56 => ⟨S256, .f32⟩
  | 57 => ⟨S1x256x256, .f32⟩
  | 58 => ⟨S256x256, .f32⟩
  | 59 => ⟨S1x256, .f32⟩
  | 60 => ⟨S256, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x256, .f32⟩
  | 70 => ⟨S_, .f32⟩
  | 71 => ⟨S50000x256, .f32⟩
  | 72 => ⟨S800000x1, .i32⟩
  | 73 => ⟨S50000x256, .f32⟩
  | 74 => ⟨S_, .f32⟩
  | 75 => ⟨S_, .f32⟩
  | 76 => ⟨S50000x256, .f32⟩
  | 77 => ⟨S50000x256, .f32⟩
  | 78 => ⟨S50000x256, .f32⟩
  | 79 => ⟨S256x256, .f32⟩
  | 80 => ⟨S50000x256, .f32⟩
  | 81 => ⟨S1x256, .f32⟩
  | 82 => ⟨S50000x256, .f32⟩
  | 83 => ⟨S50000x256, .f32⟩
  | 84 => ⟨S_, .f32⟩
  | 85 => ⟨S50000x256, .f32⟩
  | 86 => ⟨S50000x256, .f32⟩
  | 87 => ⟨S256x256, .f32⟩
  | 88 => ⟨S50000x256, .f32⟩
  | 89 => ⟨S1x256, .f32⟩
  | 90 => ⟨S50000x256, .f32⟩
  | 91 => ⟨S50000x256, .f32⟩
  | 92 => ⟨S_, .f32⟩
  | 93 => ⟨S50000x256, .f32⟩
  | 94 => ⟨S50000x256, .f32⟩
  | 95 => ⟨S1, .f32⟩
  | 96 => ⟨S_, .f32⟩
  | 97 => ⟨S1x256x256, .f32⟩
  | 98 => ⟨S256x256, .f32⟩
  | 99 => ⟨S1x256, .f32⟩
  | 100 => ⟨S256, .f32⟩
  | 101 => ⟨S1x256x256, .f32⟩
  | 102 => ⟨S256x256, .f32⟩
  | 103 => ⟨S1x256, .f32⟩
  | 104 => ⟨S256, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x256, .f32⟩
  | 114 => ⟨S_, .f32⟩
  | 115 => ⟨S50000x256, .f32⟩
  | 116 => ⟨S800000x1, .i32⟩
  | 117 => ⟨S50000x256, .f32⟩
  | 118 => ⟨S_, .f32⟩
  | 119 => ⟨S_, .f32⟩
  | 120 => ⟨S50000x256, .f32⟩
  | 121 => ⟨S50000x256, .f32⟩
  | 122 => ⟨S50000x256, .f32⟩
  | 123 => ⟨S256x256, .f32⟩
  | 124 => ⟨S50000x256, .f32⟩
  | 125 => ⟨S1x256, .f32⟩
  | 126 => ⟨S50000x256, .f32⟩
  | 127 => ⟨S50000x256, .f32⟩
  | _ => ⟨S50000x128, .f32⟩

abbrev hbmTy0_1 (i : Nat) : BufTy := match i % 128 with
  | 0 => ⟨S_, .f32⟩
  | 1 => ⟨S50000x256, .f32⟩
  | 2 => ⟨S50000x256, .f32⟩
  | 3 => ⟨S256x256, .f32⟩
  | 4 => ⟨S50000x256, .f32⟩
  | 5 => ⟨S1x256, .f32⟩
  | 6 => ⟨S50000x256, .f32⟩
  | 7 => ⟨S50000x256, .f32⟩
  | 8 => ⟨S_, .f32⟩
  | 9 => ⟨S50000x256, .f32⟩
  | 10 => ⟨S50000x256, .f32⟩
  | 11 => ⟨S1, .f32⟩
  | 12 => ⟨S_, .f32⟩
  | 13 => ⟨S1x256x256, .f32⟩
  | 14 => ⟨S256x256, .f32⟩
  | 15 => ⟨S1x256, .f32⟩
  | 16 => ⟨S256, .f32⟩
  | 17 => ⟨S1x256x256, .f32⟩
  | 18 => ⟨S256x256, .f32⟩
  | 19 => ⟨S1x256, .f32⟩
  | 20 => ⟨S256, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x256, .f32⟩
  | 30 => ⟨S_, .f32⟩
  | 31 => ⟨S50000x256, .f32⟩
  | 32 => ⟨S800000x1, .i32⟩
  | 33 => ⟨S50000x256, .f32⟩
  | 34 => ⟨S_, .f32⟩
  | 35 => ⟨S_, .f32⟩
  | 36 => ⟨S50000x256, .f32⟩
  | 37 => ⟨S50000x256, .f32⟩
  | 38 => ⟨S50000x256, .f32⟩
  | 39 => ⟨S256x256, .f32⟩
  | 40 => ⟨S50000x256, .f32⟩
  | 41 => ⟨S1x256, .f32⟩
  | 42 => ⟨S50000x256, .f32⟩
  | 43 => ⟨S50000x256, .f32⟩
  | 44 => ⟨S_, .f32⟩
  | 45 => ⟨S50000x256, .f32⟩
  | 46 => ⟨S50000x256, .f32⟩
  | 47 => ⟨S256x256, .f32⟩
  | 48 => ⟨S50000x256, .f32⟩
  | 49 => ⟨S1x256, .f32⟩
  | 50 => ⟨S50000x256, .f32⟩
  | 51 => ⟨S50000x256, .f32⟩
  | 52 => ⟨S_, .f32⟩
  | 53 => ⟨S50000x256, .f32⟩
  | 54 => ⟨S50000x256, .f32⟩
  | 55 => ⟨S1, .f32⟩
  | 56 => ⟨S_, .f32⟩
  | 57 => ⟨S1x256x256, .f32⟩
  | 58 => ⟨S256x256, .f32⟩
  | 59 => ⟨S1x256, .f32⟩
  | 60 => ⟨S256, .f32⟩
  | 61 => ⟨S1x256x256, .f32⟩
  | 62 => ⟨S256x256, .f32⟩
  | 63 => ⟨S1x256, .f32⟩
  | 64 => ⟨S256, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x256, .f32⟩
  | 74 => ⟨S_, .f32⟩
  | 75 => ⟨S50000x256, .f32⟩
  | 76 => ⟨S800000x1, .i32⟩
  | 77 => ⟨S50000x256, .f32⟩
  | 78 => ⟨S_, .f32⟩
  | 79 => ⟨S_, .f32⟩
  | 80 => ⟨S50000x256, .f32⟩
  | 81 => ⟨S50000x256, .f32⟩
  | 82 => ⟨S50000x256, .f32⟩
  | 83 => ⟨S256x256, .f32⟩
  | 84 => ⟨S50000x256, .f32⟩
  | 85 => ⟨S1x256, .f32⟩
  | 86 => ⟨S50000x256, .f32⟩
  | 87 => ⟨S50000x256, .f32⟩
  | 88 => ⟨S_, .f32⟩
  | 89 => ⟨S50000x256, .f32⟩
  | 90 => ⟨S50000x256, .f32⟩
  | 91 => ⟨S256x256, .f32⟩
  | 92 => ⟨S50000x256, .f32⟩
  | 93 => ⟨S1x256, .f32⟩
  | 94 => ⟨S50000x256, .f32⟩
  | 95 => ⟨S50000x256, .f32⟩
  | 96 => ⟨S_, .f32⟩
  | 97 => ⟨S50000x256, .f32⟩
  | 98 => ⟨S50000x256, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call1_cst : Ref sig .tc := ⟨.hbm, 48, rfl⟩
abbrev main_call1_v0 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_2 : Ref sig .tc := ⟨.hbm, 61, rfl⟩
abbrev main_v42 : Ref sig .tc := ⟨.hbm, 62, rfl⟩
abbrev main_v43 : Ref sig .tc := ⟨.hbm, 63, rfl⟩
abbrev main_c_3 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_4 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_5 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_call2_cst : Ref sig .tc := ⟨.hbm, 84, rfl⟩
abbrev main_call2_v0 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call3_cst : Ref sig .tc := ⟨.hbm, 92, rfl⟩
abbrev main_call3_v0 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_c_6 : Ref sig .tc := ⟨.hbm, 105, rfl⟩
abbrev main_v78 : Ref sig .tc := ⟨.hbm, 106, rfl⟩
abbrev main_v79 : Ref sig .tc := ⟨.hbm, 107, rfl⟩
abbrev main_c_7 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_8 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_9 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_call4_cst : Ref sig .tc := ⟨.hbm, 128, rfl⟩
abbrev main_call4_v0 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_call5_cst : Ref sig .tc := ⟨.hbm, 136, rfl⟩
abbrev main_call5_v0 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_c_10 : Ref sig .tc := ⟨.hbm, 149, rfl⟩
abbrev main_v114 : Ref sig .tc := ⟨.hbm, 150, rfl⟩
abbrev main_v115 : Ref sig .tc := ⟨.hbm, 151, rfl⟩
abbrev main_c_11 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_cst_12 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_cst_13 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_call6_cst : Ref sig .tc := ⟨.hbm, 172, rfl⟩
abbrev main_call6_v0 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_call7_cst : Ref sig .tc := ⟨.hbm, 180, rfl⟩
abbrev main_call7_v0 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_c_14 : Ref sig .tc := ⟨.hbm, 193, rfl⟩
abbrev main_v150 : Ref sig .tc := ⟨.hbm, 194, rfl⟩
abbrev main_v151 : Ref sig .tc := ⟨.hbm, 195, rfl⟩
abbrev main_c_15 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_cst_16 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_cst_17 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_call8_cst : Ref sig .tc := ⟨.hbm, 216, rfl⟩
abbrev main_call8_v0 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_call9_cst : Ref sig .tc := ⟨.hbm, 224, rfl⟩
abbrev main_call9_v0 : Ref sig .tc := ⟨.hbm, 225, rfl⟩
abbrev main_v175 : Ref sig .tc := ⟨.hbm, 226, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S5_S1_0 : S5.Slices ![0] S1
  shapeCasts_S1_S_ : S1.ShapeCasts S_
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  transposes_S256x256_S256x256_1_0 : S256x256.Transposes [1, 0] S256x256
  slices_S5_S1_1 : S5.Slices ![1] S1
  slices_S4x256x256_S1x256x256_0_0_0 : S4x256x256.Slices ![0, 0, 0] S1x256x256
  shapeCasts_S1x256x256_S256x256 : S1x256x256.ShapeCasts S256x256
  slices_S4x256_S1x256_0_0 : S4x256.Slices ![0, 0] S1x256
  shapeCasts_S1x256_S256 : S1x256.ShapeCasts S256
  slices_S5_S1_2 : S5.Slices ![2] S1
  slices_S4x256x256_S1x256x256_1_0_0 : S4x256x256.Slices ![1, 0, 0] S1x256x256
  slices_S4x256_S1x256_1_0 : S4x256.Slices ![1, 0] S1x256
  slices_S5_S1_3 : S5.Slices ![3] S1
  slices_S4x256x256_S1x256x256_2_0_0 : S4x256x256.Slices ![2, 0, 0] S1x256x256
  slices_S4x256_S1x256_2_0 : S4x256.Slices ![2, 0] S1x256
  slices_S5_S1_4 : S5.Slices ![4] S1
  slices_S4x256x256_S1x256x256_3_0_0 : S4x256x256.Slices ![3, 0, 0] S1x256x256
  slices_S4x256_S1x256_3_0 : S4x256.Slices ![3, 0] S1x256
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

class Facts : Prop extends Facts₀ where

variable [Facts]
-- ==== Proof.KRun.lean ====
import proofs.«160357_j59012850647687_1_alg».proof.Proof.Gen.KernelIdeal.Frame

/-!
# The kernel program's run, with every buffer's final contents named

The program is five launches among stretches of array operations. Its run ends with every buffer that outlives a launch
at the last valuation of the fold through the program: after each stretch the stretch's results, after each launch that
launch's arrays at what its write-backs leave. The statement here keeps that whole final valuation (the frame statement
keeps only the arguments); the result array and the arguments are then read off it.
-/

set_option maxRecDepth 16384

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every buffer that outlives a launch at the fold's
    last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-- A buffer of the program's own (none is scoped to a launch) is among those the final valuation names. -/
theorem run_named : θ_run defs (onTc (τ := τ) (main (F := F))) ⟨m, fun _ => 0, ρ⟩ (fun r => ∀ c : Dev nD,
      r.2.mem ((c.tc : Thread nD τ).loc main_v115) = W10 m ρ c (Proc.devRef .tc main_v115)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun s h c =>
      ⟨h c _ (mem_uc main_v115 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c)⟩)
    (run_all m ρ)

end Cert.KernelIdeal.RunAll

end
-- ==== Proof.KHost.lean ====
import proofs.«160357_j59012850647687_1_alg».proof.Proof.Gen.KernelIdeal.Frame

/-!
# The kernel program's array operations between the launches, read

Before each launch a stretch of array operations prepares that launch's arrays: the aggregated messages (the rows of
the current features at the edges' sources, a negative source counted from the end, added into the rows at the edges'
destinations), the layer's scalar as a (1,1) array, its weight matrices (cut from the stacks for the later layers)
and its biases as rows. Here each of those arrays is stated as the operations' value of the launch contents of the
arguments and of the previous launch's output; the edge lists, the scalars and the stacks are carried unchanged
through every stretch and every launch, since no operation writes them and no launch has them among its arrays.
-/

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ### What is carried unchanged to the start of each later stretch -/

theorem W2_v1 (c : Dev nD) : W2 m ρ c (Proc.devRef .tc main_v1) = shapeCast S800000 (extractStridedSlice S1x800000 ![0, 0] (m ((c : Thread nD τ).loc main_arg1)) slices_S2x800000_S1x800000_0_0) shapeCasts_S1x800000_S800000 :=
  (W2_of_ne m ρ c main_v1 (by decide)).trans (by show StableHlo.after hostOps0 (W0 m ρ c) _ = _; after_results <;> rfl)
theorem W4_v1 (c : Dev nD) : W4 m ρ c (Proc.devRef .tc main_v1) = shapeCast S800000 (extractStridedSlice S1x800000 ![0, 0] (m ((c : Thread nD τ).loc main_arg1)) slices_S2x800000_S1x800000_0_0) shapeCasts_S1x800000_S800000 :=
  (W4_of_ne m ρ c main_v1 (by decide)).trans (by show StableHlo.after hostOps1 (W2 m ρ c) _ = _; after_results <;> exact W2_v1 m ρ c)
theorem W6_v1 (c : Dev nD) : W6 m ρ c (Proc.devRef .tc main_v1) = shapeCast S800000 (extractStridedSlice S1x800000 ![0, 0] (m ((c : Thread nD τ).loc main_arg1)) slices_S2x800000_S1x800000_0_0) shapeCasts_S1x800000_S800000 :=
  (W6_of_ne m ρ c main_v1 (by decide)).trans (by show StableHlo.after hostOps2 (W4 m ρ c) _ = _; after_results <;> exact W4_v1 m ρ c)
theorem W8_v1 (c : Dev nD) : W8 m ρ c (Proc.devRef .tc main_v1) = shapeCast S800000 (extractStridedSlice S1x800000 ![0, 0] (m ((c : Thread nD τ).loc main_arg1)) slices_S2x800000_S1x800000_0_0) shapeCasts_S1x800000_S800000 :=
  (W8_of_ne m ρ c main_v1 (by decide)).trans (by show StableHlo.after hostOps3 (W6 m ρ c) _ = _; after_results <;> exact W6_v1 m ρ c)
theorem W2_v3 (c : Dev nD) : W2 m ρ c (Proc.devRef .tc main_v3) = shapeCast S800000 (extractStridedSlice S1x800000 ![1, 0] (m ((c : Thread nD τ).loc main_arg1)) slices_S2x800000_S1x800000_1_0) shapeCasts_S1x800000_S800000 :=
  (W2_of_ne m ρ c main_v3 (by decide)).trans (by show StableHlo.after hostOps0 (W0 m ρ c) _ = _; after_results <;> rfl)
theorem W4_v3 (c : Dev nD) : W4 m ρ c (Proc.devRef .tc main_v3) = shapeCast S800000 (extractStridedSlice S1x800000 ![1, 0] (m ((c : Thread nD τ).loc main_arg1)) slices_S2x800000_S1x800000_1_0) shapeCasts_S1x800000_S800000 :=
  (W4_of_ne m ρ c main_v3 (by decide)).trans (by show StableHlo.after hostOps1 (W2 m ρ c) _ = _; after_results <;> exact W2_v3 m ρ c)
theorem W6_v3 (c : Dev nD) : W6 m ρ c (Proc.devRef .tc main_v3) = shapeCast S800000 (extractStridedSlice S1x800000 ![1, 0] (m ((c : Thread nD τ).loc main_arg1)) slices_S2x800000_S1x800000_1_0) shapeCasts_S1x800000_S800000 :=
  (W6_of_ne m ρ c main_v3 (by decide)).trans (by show StableHlo.after hostOps2 (W4 m ρ c) _ = _; after_results <;> exact W4_v3 m ρ c)
theorem W8_v3 (c : Dev nD) : W8 m ρ c (Proc.devRef .tc main_v3) = shapeCast S800000 (extractStridedSlice S1x800000 ![1, 0] (m ((c : Thread nD τ).loc main_arg1)) slices_S2x800000_S1x800000_1_0) shapeCasts_S1x800000_S800000 :=
  (W8_of_ne m ρ c main_v3 (by decide)).trans (by show StableHlo.after hostOps3 (W6 m ρ c) _ = _; after_results <;> exact W6_v3 m ρ c)
theorem W2_arg2 (c : Dev nD) : W2 m ρ c (Proc.devRef .tc main_arg2) = (m ((c : Thread nD τ).loc main_arg2)) :=
  (W2_of_ne m ρ c main_arg2 (by decide)).trans (by show StableHlo.after hostOps0 (W0 m ρ c) _ = _; after_results <;> rfl)
theorem W4_arg2 (c : Dev nD) : W4 m ρ c (Proc.devRef .tc main_arg2) = (m ((c : Thread nD τ).loc main_arg2)) :=
  (W4_of_ne m ρ c main_arg2 (by decide)).trans (by show StableHlo.after hostOps1 (W2 m ρ c) _ = _; after_results <;> exact W2_arg2 m ρ c)
theorem W6_arg2 (c : Dev nD) : W6 m ρ c (Proc.devRef .tc main_arg2) = (m ((c : Thread nD τ).loc main_arg2)) :=
  (W6_of_ne m ρ c main_arg2 (by decide)).trans (by show StableHlo.after hostOps2 (W4 m ρ c) _ = _; after_results <;> exact W4_arg2 m ρ c)
theorem W8_arg2 (c : Dev nD) : W8 m ρ c (Proc.devRef .tc main_arg2) = (m ((c : Thread nD τ).loc main_arg2)) :=
  (W8_of_ne m ρ c main_arg2 (by decide)).trans (by show StableHlo.after hostOps3 (W6 m ρ c) _ = _; after_results <;> exact W6_arg2 m ρ c)
theorem W2_arg7 (c : Dev nD) : W2 m ρ c (Proc.devRef .tc main_arg7) = (m ((c : Thread nD τ).loc main_arg7)) :=
  (W2_of_ne m ρ c main_arg7 (by decide)).trans (by show StableHlo.after hostOps0 (W0 m ρ c) _ = _; after_results <;> rfl)
theorem W4_arg7 (c : Dev nD) : W4 m ρ c (Proc.devRef .tc main_arg7) = (m ((c : Thread nD τ).loc main_arg7)) :=
  (W4_of_ne m ρ c main_arg7 (by decide)).trans (by show StableHlo.after hostOps1 (W2 m ρ c) _ = _; after_results <;> exact W2_arg7 m ρ c)
theorem W6_arg7 (c : Dev nD) : W6 m ρ c (Proc.devRef .tc main_arg7) = (m ((c : Thread nD τ).loc main_arg7)) :=
  (W6_of_ne m ρ c main_arg7 (by decide)).trans (by show StableHlo.after hostOps2 (W4 m ρ c) _ = _; after_results <;> exact W4_arg7 m ρ c)
theorem W8_arg7 (c : Dev nD) : W8 m ρ c (Proc.devRef .tc main_arg7) = (m ((c : Thread nD τ).loc main_arg7)) :=
  (W8_of_ne m ρ c main_arg7 (by decide)).trans (by show StableHlo.after hostOps3 (W6 m ρ c) _ = _; after_results <;> exact W6_arg7 m ρ c)
theorem W2_arg8 (c : Dev nD) : W2 m ρ c (Proc.devRef .tc main_arg8) = (m ((c : Thread nD τ).loc main_arg8)) :=
  (W2_of_ne m ρ c main_arg8 (by decide)).trans (by show StableHlo.after hostOps0 (W0 m ρ c) _ = _; after_results <;> rfl)
theorem W4_arg8 (c : Dev nD) : W4 m ρ c (Proc.devRef .tc main_arg8) = (m ((c : Thread nD τ).loc main_arg8)) :=
  (W4_of_ne m ρ c main_arg8 (by decide)).trans (by show StableHlo.after hostOps1 (W2 m ρ c) _ = _; after_results <;> exact W2_arg8 m ρ c)
theorem W6_arg8 (c : Dev nD) : W6 m ρ c (Proc.devRef .tc main_arg8) = (m ((c : Thread nD τ).loc main_arg8)) :=
  (W6_of_ne m ρ c main_arg8 (by decide)).trans (by show StableHlo.after hostOps2 (W4 m ρ c) _ = _; after_results <;> exact W4_arg8 m ρ c)
theorem W8_arg8 (c : Dev nD) : W8 m ρ c (Proc.devRef .tc main_arg8) = (m ((c : Thread nD τ).loc main_arg8)) :=
  (W8_of_ne m ρ c main_arg8 (by decide)).trans (by show StableHlo.after hostOps3 (W6 m ρ c) _ = _; after_results <;> exact W6_arg8 m ρ c)
theorem W2_arg9 (c : Dev nD) : W2 m ρ c (Proc.devRef .tc main_arg9) = (m ((c : Thread nD τ).loc main_arg9)) :=
  (W2_of_ne m ρ c main_arg9 (by decide)).trans (by show StableHlo.after hostOps0 (W0 m ρ c) _ = _; after_results <;> rfl)
theorem W4_arg9 (c : Dev nD) : W4 m ρ c (Proc.devRef .tc main_arg9) = (m ((c : Thread nD τ).loc main_arg9)) :=
  (W4_of_ne m ρ c main_arg9 (by decide)).trans (by show StableHlo.after hostOps1 (W2 m ρ c) _ = _; after_results <;> exact W2_arg9 m ρ c)
theorem W6_arg9 (c : Dev nD) : W6 m ρ c (Proc.devRef .tc main_arg9) = (m ((c : Thread nD τ).loc main_arg9)) :=
  (W6_of_ne m ρ c main_arg9 (by decide)).trans (by show StableHlo.after hostOps2 (W4 m ρ c) _ = _; after_results <;> exact W4_arg9 m ρ c)
theorem W8_arg9 (c : Dev nD) : W8 m ρ c (Proc.devRef .tc main_arg9) = (m ((c : Thread nD τ).loc main_arg9)) :=
  (W8_of_ne m ρ c main_arg9 (by decide)).trans (by show StableHlo.after hostOps3 (W6 m ρ c) _ = _; after_results <;> exact W6_arg9 m ρ c)
theorem W2_arg10 (c : Dev nD) : W2 m ρ c (Proc.devRef .tc main_arg10) = (m ((c : Thread nD τ).loc main_arg10)) :=
  (W2_of_ne m ρ c main_arg10 (by decide)).trans (by show StableHlo.after hostOps0 (W0 m ρ c) _ = _; after_results <;> rfl)
theorem W4_arg10 (c : Dev nD) : W4 m ρ c (Proc.devRef .tc main_arg10) = (m ((c : Thread nD τ).loc main_arg10)) :=
  (W4_of_ne m ρ c main_arg10 (by decide)).trans (by show StableHlo.after hostOps1 (W2 m ρ c) _ = _; after_results <;> exact W2_arg10 m ρ c)
theorem W6_arg10 (c : Dev nD) : W6 m ρ c (Proc.devRef .tc main_arg10) = (m ((c : Thread nD τ).loc main_arg10)) :=
  (W6_of_ne m ρ c main_arg10 (by decide)).trans (by show StableHlo.after hostOps2 (W4 m ρ c) _ = _; after_results <;> exact W4_arg10 m ρ c)
theorem W8_arg10 (c : Dev nD) : W8 m ρ c (Proc.devRef .tc main_arg10) = (m ((c : Thread nD τ).loc main_arg10)) :=
  (W8_of_ne m ρ c main_arg10 (by decide)).trans (by show StableHlo.after hostOps3 (W6 m ρ c) _ = _; after_results <;> exact W6_arg10 m ρ c)

/-! ### Launch 0's arrays -/

theorem ent0_x (c : Dev nD) : V1 m ρ c main_arg0 = (m ((c : Thread nD τ).loc main_arg0)) := by
  show StableHlo.after hostOps0 (W0 m ρ c) _ = _; after_results <;> rfl
set_option maxHeartbeats 4000000 in
theorem ent0_a (c : Dev nD) : V1 m ρ c main_v13 = Host.scatterAdd scatter_S50000x128_S800000x1_S800000x128_1_0_0_1 (broadcastInDim S50000x128 ![] bcast_S_S50000x128 (constant S_ .f32 0x00000000#32)) (broadcastInDim S800000x1 ![0] bcast_S800000_S800000x1_0 (shapeCast S800000 (extractStridedSlice S1x800000 ![1, 0] (m ((c : Thread nD τ).loc main_arg1)) slices_S2x800000_S1x800000_1_0) shapeCasts_S1x800000_S800000)) (Host.gather gather_S50000x128_S800000x1_S800000x128_1_0_n_n_0_1_1128 (m ((c : Thread nD τ).loc main_arg0)) (broadcastInDim S800000x1 ![0] bcast_S800000_S800000x1_0 (select (cmpi .slt (shapeCast S800000 (extractStridedSlice S1x800000 ![0, 0] (m ((c : Thread nD τ).loc main_arg1)) slices_S2x800000_S1x800000_0_0) shapeCasts_S1x800000_S800000) (broadcastInDim S800000 ![] bcast_S_S800000 (constantI S_ 32 0#32))) (addi (shapeCast S800000 (extractStridedSlice S1x800000 ![0, 0] (m ((c : Thread nD τ).loc main_arg1)) slices_S2x800000_S1x800000_0_0) shapeCasts_S1x800000_S800000) (broadcastInDim S800000 ![] bcast_S_S800000 (constantI S_ 32 50000#32))) (shapeCast S800000 (extractStridedSlice S1x800000 ![0, 0] (m ((c : Thread nD τ).loc main_arg1)) slices_S2x800000_S1x800000_0_0) shapeCasts_S1x800000_S800000)))) := by
  show StableHlo.after hostOps0 (W0 m ρ c) _ = _; after_results_simp <;> rfl
theorem ent0_e (c : Dev nD) : V1 m ρ c main_v16 = shapeCast S1x1 (shapeCast S_ (extractStridedSlice S1 ![0] (m ((c : Thread nD τ).loc main_arg2)) slices_S5_S1_0) shapeCasts_S1_S_) shapeCasts_S_S1x1 := by
  show StableHlo.after hostOps0 (W0 m ρ c) _ = _; after_results <;> rfl
theorem ent0_w0 (c : Dev nD) : V1 m ρ c main_arg3 = (m ((c : Thread nD τ).loc main_arg3)) := by
  show StableHlo.after hostOps0 (W0 m ρ c) _ = _; after_results <;> rfl
theorem ent0_b0 (c : Dev nD) : V1 m ρ c main_v17 = shapeCast S1x256 (m ((c : Thread nD τ).loc main_arg4)) shapeCasts_S256_S1x256 := by
  show StableHlo.after hostOps0 (W0 m ρ c) _ = _; after_results <;> rfl
theorem ent0_w1 (c : Dev nD) : V1 m ρ c main_arg5 = (m ((c : Thread nD τ).loc main_arg5)) := by
  show StableHlo.after hostOps0 (W0 m ρ c) _ = _; after_results <;> rfl
theorem ent0_b1 (c : Dev nD) : V1 m ρ c main_v18 = shapeCast S1x256 (m ((c : Thread nD τ).loc main_arg6)) shapeCasts_S256_S1x256 := by
  show StableHlo.after hostOps0 (W0 m ρ c) _ = _; after_results <;> rfl

/-! ### Launch 1's arrays, from the valuation its stretch starts from -/

theorem ent1_x (c : Dev nD) : V3 m ρ c main_v19 = W2 m ρ c (Proc.devRef .tc main_v19) := by
  show StableHlo.after hostOps1 (W2 m ρ c) _ = _; after_results <;> rfl
set_option maxHeartbeats 4000000 in
theorem ent1_a (c : Dev nD) : V3 m ρ c main_v29 = Host.scatterAdd scatter_S50000x256_S800000x1_S800000x256_1_0_0_1 (broadcastInDim S50000x256 ![] bcast_S_S50000x256 (constant S_ .f32 0x00000000#32)) (broadcastInDim S800000x1 ![0] bcast_S800000_S800000x1_0 (W2 m ρ c (Proc.devRef .tc main_v3))) (Host.gather gather_S50000x256_S800000x1_S800000x256_1_0_n_n_0_1_1256 (W2 m ρ c (Proc.devRef .tc main_v19)) (broadcastInDim S800000x1 ![0] bcast_S800000_S800000x1_0 (select (cmpi .slt (W2 m ρ c (Proc.devRef .tc main_v1)) (broadcastInDim S800000 ![] bcast_S_S800000 (constantI S_ 32 0#32))) (addi (W2 m ρ c (Proc.devRef .tc main_v1)) (broadcastInDim S800000 ![] bcast_S_S800000 (constantI S_ 32 50000#32))) (W2 m ρ c (Proc.devRef .tc main_v1))))) := by
  show StableHlo.after hostOps1 (W2 m ρ c) _ = _; after_results_simp <;> rfl
theorem ent1_e (c : Dev nD) : V3 m ρ c main_v32 = shapeCast S1x1 (shapeCast S_ (extractStridedSlice S1 ![1] (W2 m ρ c (Proc.devRef .tc main_arg2)) slices_S5_S1_1) shapeCasts_S1_S_) shapeCasts_S_S1x1 := by
  show StableHlo.after hostOps1 (W2 m ρ c) _ = _; after_results <;> rfl
theorem ent1_w0 (c : Dev nD) : V3 m ρ c main_v34 = shapeCast S256x256 (extractStridedSlice S1x256x256 ![0, 0, 0] (W2 m ρ c (Proc.devRef .tc main_arg7)) slices_S4x256x256_S1x256x256_0_0_0) shapeCasts_S1x256x256_S256x256 := by
  show StableHlo.after hostOps1 (W2 m ρ c) _ = _; after_results <;> rfl
theorem ent1_b0 (c : Dev nD) : V3 m ρ c main_v37 = shapeCast S1x256 (shapeCast S256 (extractStridedSlice S1x256 ![0, 0] (W2 m ρ c (Proc.devRef .tc main_arg8)) slices_S4x256_S1x256_0_0) shapeCasts_S1x256_S256) shapeCasts_S256_S1x256 := by
  show StableHlo.after hostOps1 (W2 m ρ c) _ = _; after_results <;> rfl
theorem ent1_w1 (c : Dev nD) : V3 m ρ c main_v39 = shapeCast S256x256 (extractStridedSlice S1x256x256 ![0, 0, 0] (W2 m ρ c (Proc.devRef .tc main_arg9)) slices_S4x256x256_S1x256x256_0_0_0) shapeCasts_S1x256x256_S256x256 := by
  show StableHlo.after hostOps1 (W2 m ρ c) _ = _; after_results <;> rfl
theorem ent1_b1 (c : Dev nD) : V3 m ρ c main_v42 = shapeCast S1x256 (shapeCast S256 (extractStridedSlice S1x256 ![0, 0] (W2 m ρ c (Proc.devRef .tc main_arg10)) slices_S4x256_S1x256_0_0) shapeCasts_S1x256_S256) shapeCasts_S256_S1x256 := by
  show StableHlo.after hostOps1 (W2 m ρ c) _ = _; after_results <;> rfl

/-! ### Launch 2's arrays, from the valuation its stretch starts from -/

theorem ent2_x (c : Dev nD) : V5 m ρ c main_v43 = W4 m ρ c (Proc.devRef .tc main_v43) := by
  show StableHlo.after hostOps2 (W4 m ρ c) _ = _; after_results <;> rfl
set_option maxHeartbeats 4000000 in
theorem ent2_a (c : Dev nD) : V5 m ρ c main_v53 = Host.scatterAdd scatter_S50000x256_S800000x1_S800000x256_1_0_0_1 (broadcastInDim S50000x256 ![] bcast_S_S50000x256 (constant S_ .f32 0x00000000#32)) (broadcastInDim S800000x1 ![0] bcast_S800000_S800000x1_0 (W4 m ρ c (Proc.devRef .tc main_v3))) (Host.gather gather_S50000x256_S800000x1_S800000x256_1_0_n_n_0_1_1256 (W4 m ρ c (Proc.devRef .tc main_v43)) (broadcastInDim S800000x1 ![0] bcast_S800000_S800000x1_0 (select (cmpi .slt (W4 m ρ c (Proc.devRef .tc main_v1)) (broadcastInDim S800000 ![] bcast_S_S800000 (constantI S_ 32 0#32))) (addi (W4 m ρ c (Proc.devRef .tc main_v1)) (broadcastInDim S800000 ![] bcast_S_S800000 (constantI S_ 32 50000#32))) (W4 m ρ c (Proc.devRef .tc main_v1))))) := by
  show StableHlo.after hostOps2 (W4 m ρ c) _ = _; after_results_simp <;> rfl
theorem ent2_e (c : Dev nD) : V5 m ρ c main_v56 = shapeCast S1x1 (shapeCast S_ (extractStridedSlice S1 ![2] (W4 m ρ c (Proc.devRef .tc main_arg2)) slices_S5_S1_2) shapeCasts_S1_S_) shapeCasts_S_S1x1 := by
  show StableHlo.after hostOps2 (W4 m ρ c) _ = _; after_results <;> rfl
theorem ent2_w0 (c : Dev nD) : V5 m ρ c main_v58 = shapeCast S256x256 (extractStridedSlice S1x256x256 ![1, 0, 0] (W4 m ρ c (Proc.devRef .tc main_arg7)) slices_S4x256x256_S1x256x256_1_0_0) shapeCasts_S1x256x256_S256x256 := by
  show StableHlo.after hostOps2 (W4 m ρ c) _ = _; after_results <;> rfl
theorem ent2_b0 (c : Dev nD) : V5 m ρ c main_v61 = shapeCast S1x256 (shapeCast S256 (extractStridedSlice S1x256 ![1, 0] (W4 m ρ c (Proc.devRef .tc main_arg8)) slices_S4x256_S1x256_1_0) shapeCasts_S1x256_S256) shapeCasts_S256_S1x256 := by
  show StableHlo.after hostOps2 (W4 m ρ c) _ = _; after_results <;> rfl
theorem ent2_w1 (c : Dev nD) : V5 m ρ c main_v63 = shapeCast S256x256 (extractStridedSlice S1x256x256 ![1, 0, 0] (W4 m ρ c (Proc.devRef .tc main_arg9)) slices_S4x256x256_S1x256x256_1_0_0) shapeCasts_S1x256x256_S256x256 := by
  show StableHlo.after hostOps2 (W4 m ρ c) _ = _; after_results <;> rfl
theorem ent2_b1 (c : Dev nD) : V5 m ρ c main_v66 = shapeCast S1x256 (shapeCast S256 (extractStridedSlice S1x256 ![1, 0] (W4 m ρ c (Proc.devRef .tc main_arg10)) slices_S4x256_S1x256_1_0) shapeCasts_S1x256_S256) shapeCasts_S256_S1x256 := by
  show StableHlo.after hostOps2 (W4 m ρ c) _ = _; after_results <;> rfl

/-! ### Launch 3's arrays, from the valuation its stretch starts from -/

theorem ent3_x (c : Dev nD) : V7 m ρ c main_v67 = W6 m ρ c (Proc.devRef .tc main_v67) := by
  show StableHlo.after hostOps3 (W6 m ρ c) _ = _; after_results <;> rfl
set_option maxHeartbeats 4000000 in
theorem ent3_a (c : Dev nD) : V7 m ρ c main_v77 = Host.scatterAdd scatter_S50000x256_S800000x1_S800000x256_1_0_0_1 (broadcastInDim S50000x256 ![] bcast_S_S50000x256 (constant S_ .f32 0x00000000#32)) (broadcastInDim S800000x1 ![0] bcast_S800000_S800000x1_0 (W6 m ρ c (Proc.devRef .tc main_v3))) (Host.gather gather_S50000x256_S800000x1_S800000x256_1_0_n_n_0_1_1256 (W6 m ρ c (Proc.devRef .tc main_v67)) (broadcastInDim S800000x1 ![0] bcast_S800000_S800000x1_0 (select (cmpi .slt (W6 m ρ c (Proc.devRef .tc main_v1)) (broadcastInDim S800000 ![] bcast_S_S800000 (constantI S_ 32 0#32))) (addi (W6 m ρ c (Proc.devRef .tc main_v1)) (broadcastInDim S800000 ![] bcast_S_S800000 (constantI S_ 32 50000#32))) (W6 m ρ c (Proc.devRef .tc main_v1))))) := by
  show StableHlo.after hostOps3 (W6 m ρ c) _ = _; after_results_simp <;> rfl
theorem ent3_e (c : Dev nD) : V7 m ρ c main_v80 = shapeCast S1x1 (shapeCast S_ (extractStridedSlice S1 ![3] (W6 m ρ c (Proc.devRef .tc main_arg2)) slices_S5_S1_3) shapeCasts_S1_S_) shapeCasts_S_S1x1 := by
  show StableHlo.after hostOps3 (W6 m ρ c) _ = _; after_results <;> rfl
theorem ent3_w0 (c : Dev nD) : V7 m ρ c main_v82 = shapeCast S256x256 (extractStridedSlice S1x256x256 ![2, 0, 0] (W6 m ρ c (Proc.devRef .tc main_arg7)) slices_S4x256x256_S1x256x256_2_0_0) shapeCasts_S1x256x256_S256x256 := by
  show StableHlo.after hostOps3 (W6 m ρ c) _ = _; after_results <;> rfl
theorem ent3_b0 (c : Dev nD) : V7 m ρ c main_v85 = shapeCast S1x256 (shapeCast S256 (extractStridedSlice S1x256 ![2, 0] (W6 m ρ c (Proc.devRef .tc main_arg8)) slices_S4x256_S1x256_2_0) shapeCasts_S1x256_S256) shapeCasts_S256_S1x256 := by
  show StableHlo.after hostOps3 (W6 m ρ c) _ = _; after_results <;> rfl
theorem ent3_w1 (c : Dev nD) : V7 m ρ c main_v87 = shapeCast S256x256 (extractStridedSlice S1x256x256 ![2, 0, 0] (W6 m ρ c (Proc.devRef .tc main_arg9)) slices_S4x256x256_S1x256x256_2_0_0) shapeCasts_S1x256x256_S256x256 := by
  show StableHlo.after hostOps3 (W6 m ρ c) _ = _; after_results <;> rfl
theorem ent3_b1 (c : Dev nD) : V7 m ρ c main_v90 = shapeCast S1x256 (shapeCast S256 (extractStridedSlice S1x256 ![2, 0] (W6 m ρ c (Proc.devRef .tc main_arg10)) slices_S4x256_S1x256_2_0) shapeCasts_S1x256_S256) shapeCasts_S256_S1x256 := by
  show StableHlo.after hostOps3 (W6 m ρ c) _ = _; after_results <;> rfl

/-! ### Launch 4's arrays, from the valuation its stretch starts from -/

theorem ent4_x (c : Dev nD) : V9 m ρ c main_v91 = W8 m ρ c (Proc.devRef .tc main_v91) := by
  show StableHlo.after hostOps4 (W8 m ρ c) _ = _; after_results <;> rfl
set_option maxHeartbeats 4000000 in
theorem ent4_a (c : Dev nD) : V9 m ρ c main_v101 = Host.scatterAdd scatter_S50000x256_S800000x1_S800000x256_1_0_0_1 (broadcastInDim S50000x256 ![] bcast_S_S50000x256 (constant S_ .f32 0x00000000#32)) (broadcastInDim S800000x1 ![0] bcast_S800000_S800000x1_0 (W8 m ρ c (Proc.devRef .tc main_v3))) (Host.gather gather_S50000x256_S800000x1_S800000x256_1_0_n_n_0_1_1256 (W8 m ρ c (Proc.devRef .tc main_v91)) (broadcastInDim S800000x1 ![0] bcast_S800000_S800000x1_0 (select (cmpi .slt (W8 m ρ c (Proc.devRef .tc main_v1)) (broadcastInDim S800000 ![] bcast_S_S800000 (constantI S_ 32 0#32))) (addi (W8 m ρ c (Proc.devRef .tc main_v1)) (broadcastInDim S800000 ![] bcast_S_S800000 (constantI S_ 32 50000#32))) (W8 m ρ c (Proc.devRef .tc main_v1))))) := by
  show StableHlo.after hostOps4 (W8 m ρ c) _ = _; after_results_simp <;> rfl
theorem ent4_e (c : Dev nD) : V9 m ρ c main_v104 = shapeCast S1x1 (shapeCast S_ (extractStridedSlice S1 ![4] (W8 m ρ c (Proc.devRef .tc main_arg2)) slices_S5_S1_4) shapeCasts_S1_S_) shapeCasts_S_S1x1 := by
  show StableHlo.after hostOps4 (W8 m ρ c) _ = _; after_results <;> rfl
theorem ent4_w0 (c : Dev nD) : V9 m ρ c main_v106 = shapeCast S256x256 (extractStridedSlice S1x256x256 ![3, 0, 0] (W8 m ρ c (Proc.devRef .tc main_arg7)) slices_S4x256x256_S1x256x256_3_0_0) shapeCasts_S1x256x256_S256x256 := by
  show StableHlo.after hostOps4 (W8 m ρ c) _ = _; after_results <;> rfl
theorem ent4_b0 (c : Dev nD) : V9 m ρ c main_v109 = shapeCast S1x256 (shapeCast S256 (extractStridedSlice S1x256 ![3, 0] (W8 m ρ c (Proc.devRef .tc main_arg8)) slices_S4x256_S1x256_3_0) shapeCasts_S1x256_S256) shapeCasts_S256_S1x256 := by
  show StableHlo.after hostOps4 (W8 m ρ c) _ = _; after_results <;> rfl
theorem ent4_w1 (c : Dev nD) : V9 m ρ c main_v111 = shapeCast S256x256 (extractStridedSlice S1x256x256 ![3, 0, 0] (W8 m ρ c (Proc.devRef .tc main_arg9)) slices_S4x256x256_S1x256x256_3_0_0) shapeCasts_S1x256x256_S256x256 := by
  show StableHlo.after hostOps4 (W8 m ρ c) _ = _; after_results <;> rfl
theorem ent4_b1 (c : Dev nD) : V9 m ρ c main_v114 = shapeCast S1x256 (shapeCast S256 (extractStridedSlice S1x256 ![3, 0] (W8 m ρ c (Proc.devRef .tc main_arg10)) slices_S4x256_S1x256_3_0) shapeCasts_S1x256_S256) shapeCasts_S256_S1x256 := by
  show StableHlo.after hostOps4 (W8 m ρ c) _ = _; after_results <;> rfl

end Cert.KernelIdeal.Host

end
-- ==== Proof.LibPlainDot.lean ====
import Idealize.ShloMosaic.PureOps.Ideal.Laws
import Idealize.ShloMosaic.Lib.ValueIdx

/-!
# A plain matrix product read at an entry

For the dimension numbers of an M×K by K×N product with no batch axis, entry (p, q) of the product into a
zero accumulator is the sum over k of left (p, k) times right (k, q), on the extended reals.
-/

noncomputable section

namespace Cert.PlainDot

open Idealize.ShloMosaic Idealize.ShloMosaic.ValueIdx
open scoped BigOperators

theorem contr_rank (M K N : Nat) : (DotDims.plain M K N).contr.rank = 1 := rfl

theorem contr_size (M K N : Nat) :
    (DotDims.plain M K N).contr.size ⟨0, by rw [contr_rank]; exact Nat.one_pos⟩ = K := rfl

/-- The left operand's index at output (p, q) and contraction coordinate k is (p, k). -/
theorem lhsIdx_eq (M K N : Nat) (p : Fin M) (q : Fin N) (k : Fin K) :
    (DotDims.plain M K N).lhsIdx (ix2 p q)
        ((contrEquiv1 (DotDims.plain M K N) K (contr_rank M K N) (contr_size M K N)).symm k) = ix2 p k := by
  have hk := contrEquiv1_symm_val (DotDims.plain M K N) K (contr_rank M K N) (contr_size M K N) k
  funext a
  refine Fin.ext ?_
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := (1 : Fin 2)) rfl _ _).trans hk

/-- The right operand's index at output (p, q) and contraction coordinate k is (k, q). -/
theorem rhsIdx_eq (M K N : Nat) (p : Fin M) (q : Fin N) (k : Fin K) :
    (DotDims.plain M K N).rhsIdx (ix2 p q)
        ((contrEquiv1 (DotDims.plain M K N) K (contr_rank M K N) (contr_size M K N)).symm k) = ix2 k q := by
  have hk := contrEquiv1_symm_val (DotDims.plain M K N) K (contr_rank M K N) (contr_size M K N) k
  funext a
  refine Fin.ext ?_
  match a with
  | ⟨0, _⟩ =>
    exact ((DotDims.plain M K N).rhsIdx_val_of_single (cr := (0 : Fin 2)) rfl _ _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- A plain product into the zero accumulator, at entry (p, q). -/
theorem matmul_zero_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    matmul (DotDims.plain M K N) prec l r (constant (F := Ideal) ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply,
    ← Equiv.sum_comp (contrEquiv1 (DotDims.plain M K N) K (contr_rank M K N) (contr_size M K N)).symm]
  refine Finset.sum_congr rfl fun k _ => ?_
  rw [lhsIdx_eq, rhsIdx_eq]

end Cert.PlainDot

end
-- ==== Proof.LibLay.lean ====
import Idealize.ShloMosaic.Lib.ValueIdx
import Idealize.ShloMosaic.Lib.ValueLayout
import Idealize.ShloMosaic.Lib.Pipeline.Value

/-!
# Rows, columns and scalars spread over a matrix, read at an entry

A vector laid along the columns of one row, a row repeated down the rows, a vector laid down one column, a
column repeated across the columns, a scalar everywhere: each read at an entry is the operand at the
evident place.
-/

namespace Cert.Lay

open Idealize.ShloMosaic Idealize.ShloMosaic.ValueIdx

variable {α : Type}

/-- A scalar spread over any shape reads the scalar everywhere. -/
theorem scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector of length b as the one row of a [1, b] matrix. -/
theorem vecRow_apply {b : Nat} (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x _ _ fun a => ?_
  match a with
  | ⟨0, _⟩ =>
    show c.val = if b = 1 then 0 else c.val
    split
    · have := c.isLt; omega
    · rfl

/-- One row repeated down a rows. -/
theorem rowRep_apply {a b : Nat} (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x _ _ fun ax => ?_
  match ax with
  | ⟨0, _⟩ => rfl
  | ⟨1, _⟩ =>
    show c.val = if b = 1 then 0 else c.val
    split
    · have := c.isLt; omega
    · rfl

/-- A vector of length a as the one column of an [a, 1] matrix (by broadcasting). -/
theorem vecCol_apply {a : Nat} (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x _ _ fun ax => ?_
  match ax with
  | ⟨0, _⟩ =>
    show p.val = if a = 1 then 0 else p.val
    split
    · have := p.isLt; omega
    · rfl

/-- A vector of length a recast as an [a, 1] matrix. -/
theorem vecColCast_apply {a : Nat} (h : (⟨1, ![a]⟩ : Shape).ShapeCasts ⟨2, ![a, 1]⟩)
    (x : (⟨1, ![a]⟩ : Shape).Idx → α) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- One column repeated across b columns. -/
theorem colRep_apply {a b : Nat} (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x _ _ fun ax => ?_
  match ax with
  | ⟨0, _⟩ =>
    show p.val = if a = 1 then 0 else p.val
    split
    · have := p.isLt; omega
    · rfl
  | ⟨1, _⟩ => rfl

end Cert.Lay
-- ==== Proof.LibDense.lean ====
import Idealize.ShloMosaic.PureOps.Ideal.Laws
import Idealize.ShloMosaic.Lib.ValueIdx
import Idealize.ShloMosaic.Lib.ValueLayout
import Idealize.ShloMosaic.Lib.Pipeline.Value
import proofs.«160357_j59012850647687_1_alg».proof.Proof.LibPlainDot
import proofs.«160357_j59012850647687_1_alg».proof.Proof.LibLay

/-!
# Two dense layers with a scaled skip, read at an entry

For a block of rows `x`, an added block `a` of the same shape, a scalar `e`, weights `w0 : [H, D]`, `w1 : [H, H]`
(stored output-major, so each product contracts the weight's SECOND axis) and biases `b0`, `b1`, the function

  `out (p, q) = max (Σ_k max (Σ_j ((1 + e) · x (p, j) + a (p, j)) · w0 (k, j) + b0 k) 0 · w1 (q, k) + b1 q) 0`

on the extended reals. Two programs' spellings of it are read at an entry here, both generic in the extents:
the vector form (a (1,1) scalar block spread over the rows, narrowing casts, transposed weights, matrix products into
a zero accumulator, bias rows spread down the rows) and the array form (a rank-0 scalar spread everywhere, transposed
weights, contractions without an accumulator, bias vectors laid as a row and repeated). A narrowing cast is the
identity on the extended reals and a product into the zero accumulator is the plain sum, so both are `out`.
The words for 1 and 0 stay unevaluated: the same words stand on both sides.
-/

noncomputable section

namespace Cert.Dense

open Idealize.ShloMosaic Idealize.ShloMosaic.ValueIdx
open scoped BigOperators

/-- The two-layer function of one row `p` and one output column `q`. -/
def mlp {R D H : ℕ} (x a : (⟨2, ![R, D]⟩ : Shape).Idx → EReal) (e : EReal)
    (w0 : (⟨2, ![H, D]⟩ : Shape).Idx → EReal) (b0 : Fin H → EReal)
    (w1 : (⟨2, ![H, H]⟩ : Shape).Idx → EReal) (b1 : Fin H → EReal) (p : Fin R) (q : Fin H) : EReal :=
  max ((∑ k : Fin H, max ((∑ j : Fin D, ((Ideal.ofBits .f32 0x3F800000#32 + e) * x (ix2 p j) + a (ix2 p j)) * w0 (ix2 k j)) + b0 k)
      (Ideal.ofBits .f32 0x00000000#32) * w1 (ix2 q k)) + b1 q) (Ideal.ofBits .f32 0x00000000#32)

/-- Row `p` of the result depends on `x` and `a` only through their rows `p`: two row blocks of different heights
    that agree on a row give the same result there. -/
theorem mlp_congr {R R' D H : ℕ} {x a : (⟨2, ![R, D]⟩ : Shape).Idx → EReal} {x' a' : (⟨2, ![R', D]⟩ : Shape).Idx → EReal}
    {e e' : EReal} {w0 w0' : (⟨2, ![H, D]⟩ : Shape).Idx → EReal} {b0 b0' : Fin H → EReal}
    {w1 w1' : (⟨2, ![H, H]⟩ : Shape).Idx → EReal} {b1 b1' : Fin H → EReal} {p : Fin R} {p' : Fin R'} (q : Fin H)
    (hx : ∀ j, x (ix2 p j) = x' (ix2 p' j)) (ha : ∀ j, a (ix2 p j) = a' (ix2 p' j)) (he : e = e')
    (hw0 : w0 = w0') (hb0 : b0 = b0') (hw1 : w1 = w1') (hb1 : b1 = b1') :
    mlp x a e w0 b0 w1 b1 p q = mlp x' a' e' w0' b0' w1' b1' p' q := by
  subst he hw0 hb0 hw1 hb1
  unfold mlp
  simp only [hx, ha]

/-- A (1,1) block spread over an [a, b] block reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A rank-0 array recast as a (1,1) array holds the scalar at its one entry. -/
theorem shapeCast_scalar_11_apply {α : Type} (x : (⟨0, ![]⟩ : Shape).Idx → α)
    (h : (⟨0, ![]⟩ : Shape).ShapeCasts ⟨2, ![1, 1]⟩) :
    shapeCast ⟨2, ![1, 1]⟩ x h (ix2 (0 : Fin 1) (0 : Fin 1)) = x ix0 :=
  shapeCast_apply x h _ _ (by
    rw [Shape.rowMajor_val_two]
    show (Shape.rowMajorPi _ _).val = 0 * 1 + 0
    rw [Shape.rowMajorPi_zero])

/-- A contraction of an M×K array with a K×N array on the host, at entry (p, q): the plain sum. -/
theorem dotGeneral_plain_apply {φ₁ φ₂ : FTy} (M K N : ℕ) (prec : Option ContractPrecision)
    (l : FVec Ideal ⟨2, ![M, K]⟩ φ₁) (r : FVec Ideal ⟨2, ![K, N]⟩ φ₂) (p : Fin M) (q : Fin N) :
    Host.dotGeneral (DotDims.plain M K N) prec l r (ix2 p q) = ∑ k : Fin K, l (ix2 p k) * r (ix2 k q) := by
  simp only [Host.dotGeneral]
  rw [Ideal.dotGeneral_apply,
    ← Equiv.sum_comp (contrEquiv1 (DotDims.plain M K N) K (Cert.PlainDot.contr_rank M K N) (Cert.PlainDot.contr_size M K N)).symm]
  refine Finset.sum_congr rfl fun k _ => ?_
  rw [Cert.PlainDot.lhsIdx_eq, Cert.PlainDot.rhsIdx_eq]

/-- The vector form at entry (p, q). -/
theorem vector_form_apply {R D H : ℕ}
    (hb11 : (⟨2, ![1, 1]⟩ : Shape).Broadcasts ⟨2, ![R, D]⟩) (hb1H : (⟨2, ![1, H]⟩ : Shape).Broadcasts ⟨2, ![R, H]⟩)
    (ht0 : (⟨2, ![H, D]⟩ : Shape).Transposes [1, 0] ⟨2, ![D, H]⟩) (ht1 : (⟨2, ![H, H]⟩ : Shape).Transposes [1, 0] ⟨2, ![H, H]⟩)
    (hlt : FTy.bf16.bits < FTy.f32.bits)
    (e : FVec Ideal ⟨2, ![1, 1]⟩ .f32) (x a : FVec Ideal ⟨2, ![R, D]⟩ .f32) (w0 : FVec Ideal ⟨2, ![H, D]⟩ .f32)
    (b0 : FVec Ideal ⟨2, ![1, H]⟩ .f32) (w1 : FVec Ideal ⟨2, ![H, H]⟩ .f32) (b1 : FVec Ideal ⟨2, ![1, H]⟩ .f32)
    (p : Fin R) (q : Fin H) :
    maximumf (addf (matmul (DotDims.plain R H H) none
        (truncf .bf16 (maximumf (addf (matmul (DotDims.plain R D H) none
            (truncf .bf16 (addf (mulf (broadcastTo ⟨2, ![R, D]⟩ (addf (broadcast ⟨2, ![1, 1]⟩ (Scalar.ofBits (F := Ideal) .f32 0x3F800000#32)) e) hb11) x) a) hlt)
            (transpose ⟨2, ![D, H]⟩ [1, 0] (truncf .bf16 w0 hlt) ht0)
            (constant (F := Ideal) ⟨2, ![R, H]⟩ .f32 0x00000000#32))
          (broadcastTo ⟨2, ![R, H]⟩ b0 hb1H)) (broadcast ⟨2, ![R, H]⟩ (Scalar.ofBits (F := Ideal) .f32 0x00000000#32))) hlt)
        (transpose ⟨2, ![H, H]⟩ [1, 0] (truncf .bf16 w1 hlt) ht1)
        (constant (F := Ideal) ⟨2, ![R, H]⟩ .f32 0x00000000#32))
      (broadcastTo ⟨2, ![R, H]⟩ b1 hb1H)) (broadcast ⟨2, ![R, H]⟩ (Scalar.ofBits (F := Ideal) .f32 0x00000000#32)) (ix2 p q)
    = mlp x a (e (ix2 (0 : Fin 1) (0 : Fin 1))) w0 (fun k => b0 (ix2 (0 : Fin 1) k)) w1 (fun k => b1 (ix2 (0 : Fin 1) k)) p q := by
  unfold mlp
  simp only [maximumf_apply, addf_apply, mulf_apply, truncf_apply, broadcast_apply, Cert.PlainDot.matmul_zero_apply,
    transpose_ix2_apply (truncf .bf16 w0 hlt) ht0, transpose_ix2_apply (truncf .bf16 w1 hlt) ht1,
    broadcastTo_11_ab_apply, broadcastTo_1b_ab_apply]
  rfl

/-- The array form at entry (p, q). -/
theorem array_form_apply {R D H : ℕ}
    (hsD : (⟨0, ![]⟩ : Shape).BroadcastsInDim ⟨2, ![R, D]⟩ (![] : Fin 0 → Fin 2))
    (hsH : (⟨0, ![]⟩ : Shape).BroadcastsInDim ⟨2, ![R, H]⟩ (![] : Fin 0 → Fin 2))
    (hv : (⟨1, ![H]⟩ : Shape).BroadcastsInDim ⟨2, ![1, H]⟩ (![1] : Fin 1 → Fin 2))
    (hr : (⟨2, ![1, H]⟩ : Shape).BroadcastsInDim ⟨2, ![R, H]⟩ (![0, 1] : Fin 2 → Fin 2))
    (ht0 : (⟨2, ![H, D]⟩ : Shape).Transposes [1, 0] ⟨2, ![D, H]⟩) (ht1 : (⟨2, ![H, H]⟩ : Shape).Transposes [1, 0] ⟨2, ![H, H]⟩)
    (e : FVec Ideal ⟨0, ![]⟩ .f32) (x a : FVec Ideal ⟨2, ![R, D]⟩ .f32) (w0 : FVec Ideal ⟨2, ![H, D]⟩ .f32)
    (b0 : FVec Ideal ⟨1, ![H]⟩ .f32) (w1 : FVec Ideal ⟨2, ![H, H]⟩ .f32) (b1 : FVec Ideal ⟨1, ![H]⟩ .f32)
    (p : Fin R) (q : Fin H) :
    maximumf (addf (Host.dotGeneral (DotDims.plain R H H) none
        (maximumf (addf (Host.dotGeneral (DotDims.plain R D H) none
            (addf (mulf (broadcastInDim ⟨2, ![R, D]⟩ ![] hsD (addf (constant (F := Ideal) ⟨0, ![]⟩ .f32 0x3F800000#32) e)) x) a)
            (transpose ⟨2, ![D, H]⟩ [1, 0] w0 ht0))
          (broadcastInDim ⟨2, ![R, H]⟩ ![0, 1] hr (broadcastInDim ⟨2, ![1, H]⟩ ![1] hv b0)))
          (broadcastInDim ⟨2, ![R, H]⟩ ![] hsH (constant (F := Ideal) ⟨0, ![]⟩ .f32 0x00000000#32)))
        (transpose ⟨2, ![H, H]⟩ [1, 0] w1 ht1))
      (broadcastInDim ⟨2, ![R, H]⟩ ![0, 1] hr (broadcastInDim ⟨2, ![1, H]⟩ ![1] hv b1)))
      (broadcastInDim ⟨2, ![R, H]⟩ ![] hsH (constant (F := Ideal) ⟨0, ![]⟩ .f32 0x00000000#32)) (ix2 p q)
    = mlp x a (e ix0) w0 (fun k => b0 (ix1 k)) w1 (fun k => b1 (ix1 k)) p q := by
  unfold mlp
  simp only [maximumf_apply, addf_apply, mulf_apply, dotGeneral_plain_apply,
    transpose_ix2_apply w0 ht0, transpose_ix2_apply w1 ht1,
    Cert.Lay.scalar_apply hsD (addf (constant (F := Ideal) ⟨0, ![]⟩ .f32 0x3F800000#32) e),
    Cert.Lay.scalar_apply hsH (constant (F := Ideal) ⟨0, ![]⟩ .f32 0x00000000#32),
    Cert.Lay.rowRep_apply hr (broadcastInDim ⟨2, ![1, H]⟩ ![1] hv b0), Cert.Lay.rowRep_apply hr (broadcastInDim ⟨2, ![1, H]⟩ ![1] hv b1),
    Cert.Lay.vecRow_apply hv b0, Cert.Lay.vecRow_apply hv b1]
  rfl

end Cert.Dense

end
-- ==== Proof.KReg0.lean ====
import proofs.«160357_j59012850647687_1_alg».proof.Proof.Gen.KernelIdeal.Frame
import proofs.«160357_j59012850647687_1_alg».proof.Proof.LibDense
import Idealize.ShloMosaic.Lib.Pipeline.Value

/-!
# Launch 0: the output array it leaves, as one function of the arrays it finds

The launch runs over 25 blocks of 2000 rows. At block `t` the body reads rows `2000 t … 2000 t + 1999` of the node
features and of the aggregated messages, the whole of the scalar, both weight matrices and both bias rows, and
stores the two dense layers of those rows; the write-back puts them at the same rows of the output. The 25 row blocks
tile the 50000 rows, so the output array ends holding the two dense layers of every row.
-/

set_option maxRecDepth 16384

noncomputable section

namespace Cert.KernelIdeal.Reg0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at row `p`, column `q` of the block: the two dense layers of the loaded blocks. -/
theorem pay_apply (v0 : Vec Ideal S1x1 .f32) (v4 v7 : Vec Ideal S2000x128 .f32) (v11 : Vec Ideal S256x128 .f32)
    (v15 : Vec Ideal S1x256 .f32) (v22 : Vec Ideal S256x256 .f32) (v26 : Vec Ideal S1x256 .f32) (p : Fin 2000) (q : Fin 256) :
    k0_pay1 (F := Ideal) v0 v4 v7 v11 v15 v22 v26 (ix2 p q)
      = Cert.Dense.mlp v4 v7 (v0 (ix2 (0 : Fin 1) (0 : Fin 1))) v11 (fun k => v15 (ix2 (0 : Fin 1) k)) v22 (fun k => v26 (ix2 (0 : Fin 1) k)) p q := by
  unfold k0_pay1
  simp only [shapeCast_self]
  exact Cert.Dense.vector_form_apply _ _ _ _ _ v0 v4 v7 v11 v15 v22 v26 p q

/-- The index maps over the grid: the row-blocked windows are at block row `t`, column 0; the others at (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0) :=
  (by decide +kernel : ∀ t : Fin grid0.N, _)

/-- The arrays the launch finds, by window. -/
abbrev X (c : Dev nD) : S50000x128.Idx → EReal := V c (Pipeline.arrRef spec0 0)
abbrev A (c : Dev nD) : S50000x128.Idx → EReal := V c (Pipeline.arrRef spec0 1)
abbrev E (c : Dev nD) : S1x1.Idx → EReal := V c (Pipeline.arrRef spec0 2)
abbrev W0 (c : Dev nD) : S256x128.Idx → EReal := V c (Pipeline.arrRef spec0 3)
abbrev B0 (c : Dev nD) : S1x256.Idx → EReal := V c (Pipeline.arrRef spec0 4)
abbrev W1 (c : Dev nD) : S256x256.Idx → EReal := V c (Pipeline.arrRef spec0 5)
abbrev B1 (c : Dev nD) : S1x256.Idx → EReal := V c (Pipeline.arrRef spec0 6)

/-- What the output array ends holding: the two dense layers of every row. -/
def G (c : Dev nD) : S50000x256.Idx → EReal := fun i =>
  Cert.Dense.mlp (X V c) (A V c) (E V c (ix2 (0 : Fin 1) (0 : Fin 1))) (W0 V c) (fun k => B0 V c (ix2 (0 : Fin 1) k))
    (W1 V c) (fun k => B1 V c (ix2 (0 : Fin 1) k)) (i 0) (i 1)

/-- A row-blocked input window's block at point `t` is rows `2000 t + ·` of its array. -/
theorem iblk_0 (c : Dev nD) (t : Fin cfg0.N) (p : Fin 2000) (j : Fin 128) (r : Fin 50000) (hr : r.val = 2000 * t.val + p.val) :
    (iblk0 V c 0 t : S2000x128.Idx → EReal) (ix2 p j) = X V c (ix2 r j) := by
  obtain ⟨⟨e0, e1⟩, -⟩ := idx_facts t
  unfold iblk0
  rw [View.read_apply]
  refine congrArg (V c (Pipeline.arrRef spec0 0)) (funext fun a => Fin.ext ?_)
  match a with
  | ⟨0, _⟩ => show win0_0.index t (0 : Fin 2) * 2000 + 1 * p.val = r.val; omega
  | ⟨1, _⟩ => show win0_0.index t (1 : Fin 2) * 128 + 1 * j.val = j.val; omega

theorem iblk_1 (c : Dev nD) (t : Fin cfg0.N) (p : Fin 2000) (j : Fin 128) (r : Fin 50000) (hr : r.val = 2000 * t.val + p.val) :
    (iblk0 V c 1 t : S2000x128.Idx → EReal) (ix2 p j) = A V c (ix2 r j) := by
  obtain ⟨-, ⟨e0, e1⟩, -⟩ := idx_facts t
  unfold iblk0
  rw [View.read_apply]
  refine congrArg (V c (Pipeline.arrRef spec0 1)) (funext fun a => Fin.ext ?_)
  match a with
  | ⟨0, _⟩ => show win0_1.index t (0 : Fin 2) * 2000 + 1 * p.val = r.val; omega
  | ⟨1, _⟩ => show win0_1.index t (1 : Fin 2) * 128 + 1 * j.val = j.val; omega

/-- The other input windows' one block is their whole array. -/
theorem iblk_2 (c : Dev nD) (t : Fin cfg0.N) : (iblk0 V c 2 t : S1x1.Idx → EReal) = E V c := by
  obtain ⟨-, -, ⟨e0, e1⟩, -⟩ := idx_facts t
  funext y
  unfold iblk0
  rw [View.read_apply]
  refine congrArg (V c (Pipeline.arrRef spec0 2)) (funext fun a => Fin.ext ?_)
  match a with
  | ⟨0, _⟩ => show win0_2.index t (0 : Fin 2) * 1 + 1 * (y 0).val = (y 0).val; omega
  | ⟨1, _⟩ => show win0_2.index t (1 : Fin 2) * 1 + 1 * (y 1).val = (y 1).val; omega

theorem iblk_3 (c : Dev nD) (t : Fin cfg0.N) : (iblk0 V c 3 t : S256x128.Idx → EReal) = W0 V c := by
  obtain ⟨-, -, -, ⟨e0, e1⟩, -⟩ := idx_facts t
  funext y
  unfold iblk0
  rw [View.read_apply]
  refine congrArg (V c (Pipeline.arrRef spec0 3)) (funext fun a => Fin.ext ?_)
  match a with
  | ⟨0, _⟩ => show win0_3.index t (0 : Fin 2) * 256 + 1 * (y 0).val = (y 0).val; omega
  | ⟨1, _⟩ => show win0_3.index t (1 : Fin 2) * 128 + 1 * (y 1).val = (y 1).val; omega

theorem iblk_4 (c : Dev nD) (t : Fin cfg0.N) : (iblk0 V c 4 t : S1x256.Idx → EReal) = B0 V c := by
  obtain ⟨-, -, -, -, ⟨e0, e1⟩, -⟩ := idx_facts t
  funext y
  unfold iblk0
  rw [View.read_apply]
  refine congrArg (V c (Pipeline.arrRef spec0 4)) (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega

theorem iblk_5 (c : Dev nD) (t : Fin cfg0.N) : (iblk0 V c 5 t : S256x256.Idx → EReal) = W1 V c := by
  obtain ⟨-, -, -, -, -, ⟨e0, e1⟩, -⟩ := idx_facts t
  funext y
  unfold iblk0
  rw [View.read_apply]
  refine congrArg (V c (Pipeline.arrRef spec0 5)) (funext fun a => Fin.ext ?_)
  match a with
  | ⟨0, _⟩ => show win0_5.index t (0 : Fin 2) * 256 + 1 * (y 0).val = (y 0).val; omega
  | ⟨1, _⟩ => show win0_5.index t (1 : Fin 2) * 256 + 1 * (y 1).val = (y 1).val; omega

theorem iblk_6 (c : Dev nD) (t : Fin cfg0.N) : (iblk0 V c 6 t : S1x256.Idx → EReal) = B1 V c := by
  obtain ⟨-, -, -, -, -, -, ⟨e0, e1⟩, -⟩ := idx_facts t
  funext y
  unfold iblk0
  rw [View.read_apply]
  refine congrArg (V c (Pipeline.arrRef spec0 6)) (funext fun a => Fin.ext ?_)
  match a with
  | ⟨0, _⟩ => show win0_6.index t (0 : Fin 2) * 1 + 1 * (y 0).val = (y 0).val; omega
  | ⟨1, _⟩ => show win0_6.index t (1 : Fin 2) * 256 + 1 * (y 1).val = (y 1).val; omega

/-- What point `t` writes back is block `t` of `G`. -/
theorem flushed_eq (c : Dev nD) (t : Fin cfg0.N) :
    (dat0 V c).flushed 7 t = ((cfg0.win 7).blk t).view.read (Elt Ideal) (G V c) := by
  show (cfg0.win 7).cut (grid0.coords t) ((dat0 V c).after 7 t) = _
  rw [after0_7]
  unfold out0_7
  rw [View.canon_unit_zero hz]
  simp only [View.ld_unit_zero (S := S1x1) hz, View.ld_unit_zero (S := S2000x128) hz, View.ld_unit_zero (S := S256x128) hz,
    View.ld_unit_zero (S := S1x256) hz, View.ld_unit_zero (S := S256x256) hz]
  obtain ⟨-, -, -, -, -, -, -, ⟨e0, e1⟩⟩ := idx_facts t
  have ht : t.val < 25 := Nat.lt_of_lt_of_eq t.isLt N_0
  funext y
  obtain ⟨p, q, rfl⟩ : ∃ (p : Fin 2000) (q : Fin 256), y = ix2 p q := ⟨y 0, y 1, eq_ix2 y⟩
  refine (pay_apply (iblk0 V c 2 t) (iblk0 V c 0 t) (iblk0 V c 1 t) (iblk0 V c 3 t) (iblk0 V c 4 t) (iblk0 V c 5 t) (iblk0 V c 6 t) p q).trans ?_
  rw [View.read_apply]
  have hr : 2000 * t.val + p.val < 50000 := by have := p.isLt; omega
  have hi : ((cfg0.win 7).blk t).view.emb (ix2 p q) = ix2 (⟨2000 * t.val + p.val, hr⟩ : Fin 50000) q := by
    funext a; apply Fin.ext
    match a with
    | ⟨0, _⟩ => show win0_7.index t (0 : Fin 2) * 2000 + 1 * p.val = 2000 * t.val + p.val; omega
    | ⟨1, _⟩ => show win0_7.index t (1 : Fin 2) * 256 + 1 * q.val = q.val; omega
  rw [hi]
  show _ = Cert.Dense.mlp (X V c) (A V c) (E V c (ix2 (0 : Fin 1) (0 : Fin 1))) (W0 V c) (fun k => B0 V c (ix2 (0 : Fin 1) k))
    (W1 V c) (fun k => B1 V c (ix2 (0 : Fin 1) k)) (⟨2000 * t.val + p.val, hr⟩ : Fin 50000) q
  exact Cert.Dense.mlp_congr q (fun j => iblk_0 V c t p j _ rfl) (fun j => iblk_1 V c t p j _ rfl)
    (congrFun (iblk_2 V c t) _) (iblk_3 V c t) (funext fun k => congrFun (iblk_4 V c t) _) (iblk_5 V c t)
    (funext fun k => congrFun (iblk_6 V c t) _)

/-- An index is in point `t`'s block of the output iff its row is among the block's 2000 rows. -/
theorem mem_blk (t : Fin cfg0.N) (i : S50000x256.Idx) :
    i ∈ ((cfg0.win 7).blk t).view.set ↔ ∀ a : Fin 2, win0_7.index t a * S2000x256.size a ≤ (i a).val ∧ (i a).val < win0_7.index t a * S2000x256.size a + S2000x256.size a := by
  show i ∈ ((View.whole main_v19).slice (win0_7.rect t)).set ↔ _
  rw [View.set_slice_whole, Rect.mem_set_unit]
  exact Iff.rfl

/-- Every row is in the block of the point `row / 2000`. -/
theorem cover (i : S50000x256.Idx) : ∃ t : Fin cfg0.N, (cfg0.win 7).flush t = true ∧ i ∈ ((cfg0.win 7).blk t).view.set := by
  have h0 : (i 0).val < 50000 := (i 0).isLt
  have h1 : (i 1).val < 256 := (i 1).isLt
  refine ⟨⟨(i 0).val / 2000, by rw [show cfg0.N = 25 from N_0]; omega⟩, flush0_7 _, ?_⟩
  rw [mem_blk]
  obtain ⟨-, -, -, -, -, -, -, ⟨e0, e1⟩⟩ := idx_facts (⟨(i 0).val / 2000, by rw [show cfg0.N = 25 from N_0]; omega⟩ : Fin cfg0.N)
  intro a
  match a with
  | ⟨0, _⟩ =>
    show win0_7.index _ (0 : Fin 2) * 2000 ≤ (i 0).val ∧ (i 0).val < win0_7.index _ (0 : Fin 2) * 2000 + 2000
    rw [e0]; show (i 0).val / 2000 * 2000 ≤ (i 0).val ∧ (i 0).val < (i 0).val / 2000 * 2000 + 2000; omega
  | ⟨1, _⟩ =>
    show win0_7.index _ (1 : Fin 2) * 256 ≤ (i 1).val ∧ (i 1).val < win0_7.index _ (1 : Fin 2) * 256 + 256
    rw [e1]; omega

/-- The output array after the launch. -/
theorem final (c : Dev nD) : (dat0 V c).arrAt 7 cfg0.N = G V c :=
  (dat0 V c).arrAt_eq_of_cover 7 (G V c) (fun t _ => flushed_eq V c t) (cover)

end Cert.KernelIdeal.Reg0

end
-- ==== Proof.KReg1.lean ====
import proofs.«160357_j59012850647687_1_alg».proof.Proof.Gen.KernelIdeal.Frame
import proofs.«160357_j59012850647687_1_alg».proof.Proof.LibDense
import Idealize.ShloMosaic.Lib.Pipeline.Value

/-!
# Launch 1: the output array it leaves, as one function of the arrays it finds

The launch runs over 25 blocks of 2000 rows. At block `t` the body reads rows `2000 t … 2000 t + 1999` of the node
features and of the aggregated messages, the whole of the scalar, both weight matrices and both bias rows, and
stores the two dense layers of those rows; the write-back puts them at the same rows of the output. The 25 row blocks
tile the 50000 rows, so the output array ends holding the two dense layers of every row.
-/

set_option maxRecDepth 16384

noncomputable section

namespace Cert.KernelIdeal.Reg1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at row `p`, column `q` of the block: the two dense layers of the loaded blocks. -/
theorem pay_apply (v0 : Vec Ideal S1x1 .f32) (v4 v7 : Vec Ideal S2000x256 .f32) (v11 : Vec Ideal S256x256 .f32)
    (v15 : Vec Ideal S1x256 .f32) (v22 : Vec Ideal S256x256 .f32) (v26 : Vec Ideal S1x256 .f32) (p : Fin 2000) (q : Fin 256) :
    k1_pay1 (F := Ideal) v0 v4 v7 v11 v15 v22 v26 (ix2 p q)
      = Cert.Dense.mlp v4 v7 (v0 (ix2 (0 : Fin 1) (0 : Fin 1))) v11 (fun k => v15 (ix2 (0 : Fin 1) k)) v22 (fun k => v26 (ix2 (0 : Fin 1) k)) p q := by
  unfold k1_pay1
  simp only [shapeCast_self]
  exact Cert.Dense.vector_form_apply _ _ _ _ _ v0 v4 v7 v11 v15 v22 v26 p q

/-- The index maps over the grid: the row-blocked windows are at block row `t`, column 0; the others at (0, 0). -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0) :=
  (by decide +kernel : ∀ t : Fin grid1.N, _)

/-- The arrays the launch finds, by window. -/
abbrev X (c : Dev nD) : S50000x256.Idx → EReal := V c (Pipeline.arrRef spec1 0)
abbrev A (c : Dev nD) : S50000x256.Idx → EReal := V c (Pipeline.arrRef spec1 1)
abbrev E (c : Dev nD) : S1x1.Idx → EReal := V c (Pipeline.arrRef spec1 2)
abbrev W0 (c : Dev nD) : S256x256.Idx → EReal := V c (Pipeline.arrRef spec1 3)
abbrev B0 (c : Dev nD) : S1x256.Idx → EReal := V c (Pipeline.arrRef spec1 4)
abbrev W1 (c : Dev nD) : S256x256.Idx → EReal := V c (Pipeline.arrRef spec1 5)
abbrev B1 (c : Dev nD) : S1x256.Idx → EReal := V c (Pipeline.arrRef spec1 6)

/-- What the output array ends holding: the two dense layers of every row. -/
def G (c : Dev nD) : S50000x256.Idx → EReal := fun i =>
  Cert.Dense.mlp (X V c) (A V c) (E V c (ix2 (0 : Fin 1) (0 : Fin 1))) (W0 V c) (fun k => B0 V c (ix2 (0 : Fin 1) k))
    (W1 V c) (fun k => B1 V c (ix2 (0 : Fin 1) k)) (i 0) (i 1)

/-- A row-blocked input window's block at point `t` is rows `2000 t + ·` of its array. -/
theorem iblk_0 (c : Dev nD) (t : Fin cfg1.N) (p : Fin 2000) (j : Fin 256) (r : Fin 50000) (hr : r.val = 2000 * t.val + p.val) :
    (iblk1 V c 0 t : S2000x256.Idx → EReal) (ix2 p j) = X V c (ix2 r j) := by
  obtain ⟨⟨e0, e1⟩, -⟩ := idx_facts t
  unfold iblk1
  rw [View.read_apply]
  refine congrArg (V c (Pipeline.arrRef spec1 0)) (funext fun a => Fin.ext ?_)
  match a with
  | ⟨0, _⟩ => show win1_0.index t (0 : Fin 2) * 2000 + 1 * p.val = r.val; omega
  | ⟨1, _⟩ => show win1_0.index t (1 : Fin 2) * 256 + 1 * j.val = j.val; omega

theorem iblk_1 (c : Dev nD) (t : Fin cfg1.N) (p : Fin 2000) (j : Fin 256) (r : Fin 50000) (hr : r.val = 2000 * t.val + p.val) :
    (iblk1 V c 1 t : S2000x256.Idx → EReal) (ix2 p j) = A V c (ix2 r j) := by
  obtain ⟨-, ⟨e0, e1⟩, -⟩ := idx_facts t
  unfold iblk1
  rw [View.read_apply]
  refine congrArg (V c (Pipeline.arrRef spec1 1)) (funext fun a => Fin.ext ?_)
  match a with
  | ⟨0, _⟩ => show win1_1.index t (0 : Fin 2) * 2000 + 1 * p.val = r.val; omega
  | ⟨1, _⟩ => show win1_1.index t (1 : Fin 2) * 256 + 1 * j.val = j.val; omega

/-- The other input windows' one block is their whole array. -/
theorem iblk_2 (c : Dev nD) (t : Fin cfg1.N) : (iblk1 V c 2 t : S1x1.Idx → EReal) = E V c := by
  obtain ⟨-, -, ⟨e0, e1⟩, -⟩ := idx_facts t
  funext y
  unfold iblk1
  rw [View.read_apply]
  refine congrArg (V c (Pipeline.arrRef spec1 2)) (funext fun a => Fin.ext ?_)
  match a with
  | ⟨0, _⟩ => show win1_2.index t (0 : Fin 2) * 1 + 1 * (y 0).val = (y 0).val; omega
  | ⟨1, _⟩ => show win1_2.index t (1 : Fin 2) * 1 + 1 * (y 1).val = (y 1).val; omega

theorem iblk_3 (c : Dev nD) (t : Fin cfg1.N) : (iblk1 V c 3 t : S256x256.Idx → EReal) = W0 V c := by
  obtain ⟨-, -, -, ⟨e0, e1⟩, -⟩ := idx_facts t
  funext y
  unfold iblk1
  rw [View.read_apply]
  refine congrArg (V c (Pipeline.arrRef spec1 3)) (funext fun a => Fin.ext ?_)
  match a with
  | ⟨0, _⟩ => show win1_3.index t (0 : Fin 2) * 256 + 1 * (y 0).val = (y 0).val; omega
  | ⟨1, _⟩ => show win1_3.index t (1 : Fin 2) * 256 + 1 * (y 1).val = (y 1).val; omega

theorem iblk_4 (c : Dev nD) (t : Fin cfg1.N) : (iblk1 V c 4 t : S1x256.Idx → EReal) = B0 V c := by
  obtain ⟨-, -, -, -, ⟨e0, e1⟩, -⟩ := idx_facts t
  funext y
  unfold iblk1
  rw [View.read_apply]
  refine congrArg (V c (Pipeline.arrRef spec1 4)) (funext fun a => Fin.ext ?_)
  match a with
  | ⟨0, _⟩ => show win1_4.index t (0 : Fin 2) * 1 + 1 * (y 0).val = (y 0).val; omega
  | ⟨1, _⟩ => show win1_4.index t (1 : Fin 2) * 256 + 1 * (y 1).val = (y 1).val; omega

theorem iblk_5 (c : Dev nD) (t : Fin cfg1.N) : (iblk1 V c 5 t : S256x256.Idx → EReal) = W1 V c := by
  obtain ⟨-, -, -, -, -, ⟨e0, e1⟩, -⟩ := idx_facts t
  funext y
  unfold iblk1
  rw [View.read_apply]
  refine congrArg (V c (Pipeline.arrRef spec1 5)) (funext fun a => Fin.ext ?_)
  match a with
  | ⟨0, _⟩ => show win1_5.index t (0 : Fin 2) * 256 + 1 * (y 0).val = (y 0).val; omega
  | ⟨1, _⟩ => show win1_5.index t (1 : Fin 2) * 256 + 1 * (y 1).val = (y 1).val; omega

theorem iblk_6 (c : Dev nD) (t : Fin cfg1.N) : (iblk1 V c 6 t : S1x256.Idx → EReal) = B1 V c := by
  obtain ⟨-, -, -, -, -, -, ⟨e0, e1⟩, -⟩ := idx_facts t
  funext y
  unfold iblk1
  rw [View.read_apply]
  refine congrArg (V c (Pipeline.arrRef spec1 6)) (funext fun a => Fin.ext ?_)
  match a with
  | ⟨0, _⟩ => show win1_6.index t (0 : Fin 2) * 1 + 1 * (y 0).val = (y 0).val; omega
  | ⟨1, _⟩ => show win1_6.index t (1 : Fin 2) * 256 + 1 * (y 1).val = (y 1).val; omega

/-- What point `t` writes back is block `t` of `G`. -/
theorem flushed_eq (c : Dev nD) (t : Fin cfg1.N) :
    (dat1 V c).flushed 7 t = ((cfg1.win 7).blk t).view.read (Elt Ideal) (G V c) := by
  show (cfg1.win 7).cut (grid1.coords t) ((dat1 V c).after 7 t) = _
  rw [after1_7]
  unfold out1_7
  rw [View.canon_unit_zero hz]
  simp only [View.ld_unit_zero (S := S1x1) hz, View.ld_unit_zero (S := S2000x256) hz, View.ld_unit_zero (S := S256x256) hz,
    View.ld_unit_zero (S := S1x256) hz, View.ld_unit_zero (S := S256x256) hz]
  obtain ⟨-, -, -, -, -, -, -, ⟨e0, e1⟩⟩ := idx_facts t
  have ht : t.val < 25 := Nat.lt_of_lt_of_eq t.isLt N_1
  funext y
  obtain ⟨p, q, rfl⟩ : ∃ (p : Fin 2000) (q : Fin 256), y = ix2 p q := ⟨y 0, y 1, eq_ix2 y⟩
  refine (pay_apply (iblk1 V c 2 t) (iblk1 V c 0 t) (iblk1 V c 1 t) (iblk1 V c 3 t) (iblk1 V c 4 t) (iblk1 V c 5 t) (iblk1 V c 6 t) p q).trans ?_
  rw [View.read_apply]
  have hr : 2000 * t.val + p.val < 50000 := by have := p.isLt; omega
  have hi : ((cfg1.win 7).blk t).view.emb (ix2 p q) = ix2 (⟨2000 * t.val + p.val, hr⟩ : Fin 50000) q := by
    funext a; apply Fin.ext
    match a with
    | ⟨0, _⟩ => show win1_7.index t (0 : Fin 2) * 2000 + 1 * p.val = 2000 * t.val + p.val; omega
    | ⟨1, _⟩ => show win1_7.index t (1 : Fin 2) * 256 + 1 * q.val = q.val; omega
  rw [hi]
  show _ = Cert.Dense.mlp (X V c) (A V c) (E V c (ix2 (0 : Fin 1) (0 : Fin 1))) (W0 V c) (fun k => B0 V c (ix2 (0 : Fin 1) k))
    (W1 V c) (fun k => B1 V c (ix2 (0 : Fin 1) k)) (⟨2000 * t.val + p.val, hr⟩ : Fin 50000) q
  exact Cert.Dense.mlp_congr q (fun j => iblk_0 V c t p j _ rfl) (fun j => iblk_1 V c t p j _ rfl)
    (congrFun (iblk_2 V c t) _) (iblk_3 V c t) (funext fun k => congrFun (iblk_4 V c t) _) (iblk_5 V c t)
    (funext fun k => congrFun (iblk_6 V c t) _)

/-- An index is in point `t`'s block of the output iff its row is among the block's 2000 rows. -/
theorem mem_blk (t : Fin cfg1.N) (i : S50000x256.Idx) :
    i ∈ ((cfg1.win 7).blk t).view.set ↔ ∀ a : Fin 2, win1_7.index t a * S2000x256.size a ≤ (i a).val ∧ (i a).val < win1_7.index t a * S2000x256.size a + S2000x256.size a := by
  show i ∈ ((View.whole main_v43).slice (win1_7.rect t)).set ↔ _
  rw [View.set_slice_whole, Rect.mem_set_unit]
  exact Iff.rfl

/-- Every row is in the block of the point `row / 2000`. -/
theorem cover (i : S50000x256.Idx) : ∃ t : Fin cfg1.N, (cfg1.win 7).flush t = true ∧ i ∈ ((cfg1.win 7).blk t).view.set := by
  have h0 : (i 0).val < 50000 := (i 0).isLt
  have h1 : (i 1).val < 256 := (i 1).isLt
  refine ⟨⟨(i 0).val / 2000, by rw [show cfg1.N = 25 from N_1]; omega⟩, flush1_7 _, ?_⟩
  rw [mem_blk]
  obtain ⟨-, -, -, -, -, -, -, ⟨e0, e1⟩⟩ := idx_facts (⟨(i 0).val / 2000, by rw [show cfg1.N = 25 from N_1]; omega⟩ : Fin cfg1.N)
  intro a
  match a with
  | ⟨0, _⟩ =>
    show win1_7.index _ (0 : Fin 2) * 2000 ≤ (i 0).val ∧ (i 0).val < win1_7.index _ (0 : Fin 2) * 2000 + 2000
    rw [e0]; show (i 0).val / 2000 * 2000 ≤ (i 0).val ∧ (i 0).val < (i 0).val / 2000 * 2000 + 2000; omega
  | ⟨1, _⟩ =>
    show win1_7.index _ (1 : Fin 2) * 256 ≤ (i 1).val ∧ (i 1).val < win1_7.index _ (1 : Fin 2) * 256 + 256
    rw [e1]; omega

/-- The output array after the launch. -/
theorem final (c : Dev nD) : (dat1 V c).arrAt 7 cfg1.N = G V c :=
  (dat1 V c).arrAt_eq_of_cover 7 (G V c) (fun t _ => flushed_eq V c t) (cover)

end Cert.KernelIdeal.Reg1

end
-- ==== Proof.KReg2.lean ====
import proofs.«160357_j59012850647687_1_alg».proof.Proof.Gen.KernelIdeal.Frame
import proofs.«160357_j59012850647687_1_alg».proof.Proof.LibDense
import Idealize.ShloMosaic.Lib.Pipeline.Value

/-!
# Launch 2: the output array it leaves, as one function of the arrays it finds

The launch runs over 25 blocks of 2000 rows. At block `t` the body reads rows `2000 t … 2000 t + 1999` of the node
features and of the aggregated messages, the whole of the scalar, both weight matrices and both bias rows, and
stores the two dense layers of those rows; the write-back puts them at the same rows of the output. The 25 row blocks
tile the 50000 rows, so the output array ends holding the two dense layers of every row.
-/

set_option maxRecDepth 16384

noncomputable section

namespace Cert.KernelIdeal.Reg2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at row `p`, column `q` of the block: the two dense layers of the loaded blocks. -/
theorem pay_apply (v0 : Vec Ideal S1x1 .f32) (v4 v7 : Vec Ideal S2000x256 .f32) (v11 : Vec Ideal S256x256 .f32)
    (v15 : Vec Ideal S1x256 .f32) (v22 : Vec Ideal S256x256 .f32) (v26 : Vec Ideal S1x256 .f32) (p : Fin 2000) (q : Fin 256) :
    k2_pay1 (F := Ideal) v0 v4 v7 v11 v15 v22 v26 (ix2 p q)
      = Cert.Dense.mlp v4 v7 (v0 (ix2 (0 : Fin 1) (0 : Fin 1))) v11 (fun k => v15 (ix2 (0 : Fin 1) k)) v22 (fun k => v26 (ix2 (0 : Fin 1) k)) p q := by
  unfold k2_pay1
  simp only [shapeCast_self]
  exact Cert.Dense.vector_form_apply _ _ _ _ _ v0 v4 v7 v11 v15 v22 v26 p q

/-- The index maps over the grid: the row-blocked windows are at block row `t`, column 0; the others at (0, 0). -/
theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = t.val ∧ win2_7.index t (1 : Fin 2) = 0) :=
  (by decide +kernel : ∀ t : Fin grid2.N, _)

/-- The arrays the launch finds, by window. -/
abbrev X (c : Dev nD) : S50000x256.Idx → EReal := V c (Pipeline.arrRef spec2 0)
abbrev A (c : Dev nD) : S50000x256.Idx → EReal := V c (Pipeline.arrRef spec2 1)
abbrev E (c : Dev nD) : S1x1.Idx → EReal := V c (Pipeline.arrRef spec2 2)
abbrev W0 (c : Dev nD) : S256x256.Idx → EReal := V c (Pipeline.arrRef spec2 3)
abbrev B0 (c : Dev nD) : S1x256.Idx → EReal := V c (Pipeline.arrRef spec2 4)
abbrev W1 (c : Dev nD) : S256x256.Idx → EReal := V c (Pipeline.arrRef spec2 5)
abbrev B1 (c : Dev nD) : S1x256.Idx → EReal := V c (Pipeline.arrRef spec2 6)

/-- What the output array ends holding: the two dense layers of every row. -/
def G (c : Dev nD) : S50000x256.Idx → EReal := fun i =>
  Cert.Dense.mlp (X V c) (A V c) (E V c (ix2 (0 : Fin 1) (0 : Fin 1))) (W0 V c) (fun k => B0 V c (ix2 (0 : Fin 1) k))
    (W1 V c) (fun k => B1 V c (ix2 (0 : Fin 1) k)) (i 0) (i 1)

/-- A row-blocked input window's block at point `t` is rows `2000 t + ·` of its array. -/
theorem iblk_0 (c : Dev nD) (t : Fin cfg2.N) (p : Fin 2000) (j : Fin 256) (r : Fin 50000) (hr : r.val = 2000 * t.val + p.val) :
    (iblk2 V c 0 t : S2000x256.Idx → EReal) (ix2 p j) = X V c (ix2 r j) := by
  obtain ⟨⟨e0, e1⟩, -⟩ := idx_facts t
  unfold iblk2
  rw [View.read_apply]
  refine congrArg (V c (Pipeline.arrRef spec2 0)) (funext fun a => Fin.ext ?_)
  match a with
  | ⟨0, _⟩ => show win2_0.index t (0 : Fin 2) * 2000 + 1 * p.val = r.val; omega
  | ⟨1, _⟩ => show win2_0.index t (1 : Fin 2) * 256 + 1 * j.val = j.val; omega

theorem iblk_1 (c : Dev nD) (t : Fin cfg2.N) (p : Fin 2000) (j : Fin 256) (r : Fin 50000) (hr : r.val = 2000 * t.val + p.val) :
    (iblk2 V c 1 t : S2000x256.Idx → EReal) (ix2 p j) = A V c (ix2 r j) := by
  obtain ⟨-, ⟨e0, e1⟩, -⟩ := idx_facts t
  unfold iblk2
  rw [View.read_apply]
  refine congrArg (V c (Pipeline.arrRef spec2 1)) (funext fun a => Fin.ext ?_)
  match a with
  | ⟨0, _⟩ => show win2_1.index t (0 : Fin 2) * 2000 + 1 * p.val = r.val; omega
  | ⟨1, _⟩ => show win2_1.index t (1 : Fin 2) * 256 + 1 * j.val = j.val; omega

/-- The other input windows' one block is their whole array. -/
theorem iblk_2 (c : Dev nD) (t : Fin cfg2.N) : (iblk2 V c 2 t : S1x1.Idx → EReal) = E V c := by
  obtain ⟨-, -, ⟨e0, e1⟩, -⟩ := idx_facts t
  funext y
  unfold iblk2
  rw [View.read_apply]
  refine congrArg (V c (Pipeline.arrRef spec2 2)) (funext fun a => Fin.ext ?_)
  match a with
  | ⟨0, _⟩ => show win2_2.index t (0 : Fin 2) * 1 + 1 * (y 0).val = (y 0).val; omega
  | ⟨1, _⟩ => show win2_2.index t (1 : Fin 2) * 1 + 1 * (y 1).val = (y 1).val; omega

theorem iblk_3 (c : Dev nD) (t : Fin cfg2.N) : (iblk2 V c 3 t : S256x256.Idx → EReal) = W0 V c := by
  obtain ⟨-, -, -, ⟨e0, e1⟩, -⟩ := idx_facts t
  funext y
  unfold iblk2
  rw [View.read_apply]
  refine congrArg (V c (Pipeline.arrRef spec2 3)) (funext fun a => Fin.ext ?_)
  match a with
  | ⟨0, _⟩ => show win2_3.index t (0 : Fin 2) * 256 + 1 * (y 0).val = (y 0).val; omega
  | ⟨1, _⟩ => show win2_3.index t (1 : Fin 2) * 256 + 1 * (y 1).val = (y 1).val; omega

theorem iblk_4 (c : Dev nD) (t : Fin cfg2.N) : (iblk2 V c 4 t : S1x256.Idx → EReal) = B0 V c := by
  obtain ⟨-, -, -, -, ⟨e0, e1⟩, -⟩ := idx_facts t
  funext y
  unfold iblk2
  rw [View.read_apply]
  refine congrArg (V c (Pipeline.arrRef spec2 4)) (funext fun a => Fin.ext ?_)
  match a with
  | ⟨0, _⟩ => show win2_4.index t (0 : Fin 2) * 1 + 1 * (y 0).val = (y 0).val; omega
  | ⟨1, _⟩ => show win2_4.index t (1 : Fin 2) * 256 + 1 * (y 1).val = (y 1).val; omega

theorem iblk_5 (c : Dev nD) (t : Fin cfg2.N) : (iblk2 V c 5 t : S256x256.Idx → EReal) = W1 V c := by
  obtain ⟨-, -, -, -, -, ⟨e0, e1⟩, -⟩ := idx_facts t
  funext y
  unfold iblk2
  rw [View.read_apply]
  refine congrArg (V c (Pipeline.arrRef spec2 5)) (funext fun a => Fin.ext ?_)
  match a with
  | ⟨0, _⟩ => show win2_5.index t (0 : Fin 2) * 256 + 1 * (y 0).val = (y 0).val; omega
  | ⟨1, _⟩ => show win2_5.index t (1 : Fin 2) * 256 + 1 * (y 1).val = (y 1).val; omega

theorem iblk_6 (c : Dev nD) (t : Fin cfg2.N) : (iblk2 V c 6 t : S1x256.Idx → EReal) = B1 V c := by
  obtain ⟨-, -, -, -, -, -, ⟨e0, e1⟩, -⟩ := idx_facts t
  funext y
  unfold iblk2
  rw [View.read_apply]
  refine congrArg (V c (Pipeline.arrRef spec2 6)) (funext fun a => Fin.ext ?_)
  match a with
  | ⟨0, _⟩ => show win2_6.index t (0 : Fin 2) * 1 + 1 * (y 0).val = (y 0).val; omega
  | ⟨1, _⟩ => show win2_6.index t (1 : Fin 2) * 256 + 1 * (y 1).val = (y 1).val; omega

/-- What point `t` writes back is block `t` of `G`. -/
theorem flushed_eq (c : Dev nD) (t : Fin cfg2.N) :
    (dat2 V c).flushed 7 t = ((cfg2.win 7).blk t).view.read (Elt Ideal) (G V c) := by
  show (cfg2.win 7).cut (grid2.coords t) ((dat2 V c).after 7 t) = _
  rw [after2_7]
  unfold out2_7
  rw [View.canon_unit_zero hz]
  simp only [View.ld_unit_zero (S := S1x1) hz, View.ld_unit_zero (S := S2000x256) hz, View.ld_unit_zero (S := S256x256) hz,
    View.ld_unit_zero (S := S1x256) hz, View.ld_unit_zero (S := S256x256) hz]
  obtain ⟨-, -, -, -, -, -, -, ⟨e0, e1⟩⟩ := idx_facts t
  have ht : t.val < 25 := Nat.lt_of_lt_of_eq t.isLt N_2
  funext y
  obtain ⟨p, q, rfl⟩ : ∃ (p : Fin 2000) (q : Fin 256), y = ix2 p q := ⟨y 0, y 1, eq_ix2 y⟩
  refine (pay_apply (iblk2 V c 2 t) (iblk2 V c 0 t) (iblk2 V c 1 t) (iblk2 V c 3 t) (iblk2 V c 4 t) (iblk2 V c 5 t) (iblk2 V c 6 t) p q).trans ?_
  rw [View.read_apply]
  have hr : 2000 * t.val + p.val < 50000 := by have := p.isLt; omega
  have hi : ((cfg2.win 7).blk t).view.emb (ix2 p q) = ix2 (⟨2000 * t.val + p.val, hr⟩ : Fin 50000) q := by
    funext a; apply Fin.ext
    match a with
    | ⟨0, _⟩ => show win2_7.index t (0 : Fin 2) * 2000 + 1 * p.val = 2000 * t.val + p.val; omega
    | ⟨1, _⟩ => show win2_7.index t (1 : Fin 2) * 256 + 1 * q.val = q.val; omega
  rw [hi]
  show _ = Cert.Dense.mlp (X V c) (A V c) (E V c (ix2 (0 : Fin 1) (0 : Fin 1))) (W0 V c) (fun k => B0 V c (ix2 (0 : Fin 1) k))
    (W1 V c) (fun k => B1 V c (ix2 (0 : Fin 1) k)) (⟨2000 * t.val + p.val, hr⟩ : Fin 50000) q
  exact Cert.Dense.mlp_congr q (fun j => iblk_0 V c t p j _ rfl) (fun j => iblk_1 V c t p j _ rfl)
    (congrFun (iblk_2 V c t) _) (iblk_3 V c t) (funext fun k => congrFun (iblk_4 V c t) _) (iblk_5 V c t)
    (funext fun k => congrFun (iblk_6 V c t) _)

/-- An index is in point `t`'s block of the output iff its row is among the block's 2000 rows. -/
theorem mem_blk (t : Fin cfg2.N) (i : S50000x256.Idx) :
    i ∈ ((cfg2.win 7).blk t).view.set ↔ ∀ a : Fin 2, win2_7.index t a * S2000x256.size a ≤ (i a).val ∧ (i a).val < win2_7.index t a * S2000x256.size a + S2000x256.size a := by
  show i ∈ ((View.whole main_v67).slice (win2_7.rect t)).set ↔ _
  rw [View.set_slice_whole, Rect.mem_set_unit]
  exact Iff.rfl

/-- Every row is in the block of the point `row / 2000`. -/
theorem cover (i : S50000x256.Idx) : ∃ t : Fin cfg2.N, (cfg2.win 7).flush t = true ∧ i ∈ ((cfg2.win 7).blk t).view.set := by
  have h0 : (i 0).val < 50000 := (i 0).isLt
  have h1 : (i 1).val < 256 := (i 1).isLt
  refine ⟨⟨(i 0).val / 2000, by rw [show cfg2.N = 25 from N_2]; omega⟩, flush2_7 _, ?_⟩
  rw [mem_blk]
  obtain ⟨-, -, -, -, -, -, -, ⟨e0, e1⟩⟩ := idx_facts (⟨(i 0).val / 2000, by rw [show cfg2.N = 25 from N_2]; omega⟩ : Fin cfg2.N)
  intro a
  match a with
  | ⟨0, _⟩ =>
    show win2_7.index _ (0 : Fin 2) * 2000 ≤ (i 0).val ∧ (i 0).val < win2_7.index _ (0 : Fin 2) * 2000 + 2000
    rw [e0]; show (i 0).val / 2000 * 2000 ≤ (i 0).val ∧ (i 0).val < (i 0).val / 2000 * 2000 + 2000; omega
  | ⟨1, _⟩ =>
    show win2_7.index _ (1 : Fin 2) * 256 ≤ (i 1).val ∧ (i 1).val < win2_7.index _ (1 : Fin 2) * 256 + 256
    rw [e1]; omega

/-- The output array after the launch. -/
theorem final (c : Dev nD) : (dat2 V c).arrAt 7 cfg2.N = G V c :=
  (dat2 V c).arrAt_eq_of_cover 7 (G V c) (fun t _ => flushed_eq V c t) (cover)

end Cert.KernelIdeal.Reg2

end
-- ==== Proof.KReg3.lean ====
import proofs.«160357_j59012850647687_1_alg».proof.Proof.Gen.KernelIdeal.Frame
import proofs.«160357_j59012850647687_1_alg».proof.Proof.LibDense
import Idealize.ShloMosaic.Lib.Pipeline.Value

/-!
# Launch 3: the output array it leaves, as one function of the arrays it finds

The launch runs over 25 blocks of 2000 rows. At block `t` the body reads rows `2000 t … 2000 t + 1999` of the node
features and of the aggregated messages, the whole of the scalar, both weight matrices and both bias rows, and
stores the two dense layers of those rows; the write-back puts them at the same rows of the output. The 25 row blocks
tile the 50000 rows, so the output array ends holding the two dense layers of every row.
-/

set_option maxRecDepth 16384

noncomputable section

namespace Cert.KernelIdeal.Reg3

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at row `p`, column `q` of the block: the two dense layers of the loaded blocks. -/
theorem pay_apply (v0 : Vec Ideal S1x1 .f32) (v4 v7 : Vec Ideal S2000x256 .f32) (v11 : Vec Ideal S256x256 .f32)
    (v15 : Vec Ideal S1x256 .f32) (v22 : Vec Ideal S256x256 .f32) (v26 : Vec Ideal S1x256 .f32) (p : Fin 2000) (q : Fin 256) :
    k3_pay1 (F := Ideal) v0 v4 v7 v11 v15 v22 v26 (ix2 p q)
      = Cert.Dense.mlp v4 v7 (v0 (ix2 (0 : Fin 1) (0 : Fin 1))) v11 (fun k => v15 (ix2 (0 : Fin 1) k)) v22 (fun k => v26 (ix2 (0 : Fin 1) k)) p q := by
  unfold k3_pay1
  simp only [shapeCast_self]
  exact Cert.Dense.vector_form_apply _ _ _ _ _ v0 v4 v7 v11 v15 v22 v26 p q

/-- The index maps over the grid: the row-blocked windows are at block row `t`, column 0; the others at (0, 0). -/
theorem idx_facts : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = t.val ∧ win3_7.index t (1 : Fin 2) = 0) :=
  (by decide +kernel : ∀ t : Fin grid3.N, _)

/-- The arrays the launch finds, by window. -/
abbrev X (c : Dev nD) : S50000x256.Idx → EReal := V c (Pipeline.arrRef spec3 0)
abbrev A (c : Dev nD) : S50000x256.Idx → EReal := V c (Pipeline.arrRef spec3 1)
abbrev E (c : Dev nD) : S1x1.Idx → EReal := V c (Pipeline.arrRef spec3 2)
abbrev W0 (c : Dev nD) : S256x256.Idx → EReal := V c (Pipeline.arrRef spec3 3)
abbrev B0 (c : Dev nD) : S1x256.Idx → EReal := V c (Pipeline.arrRef spec3 4)
abbrev W1 (c : Dev nD) : S256x256.Idx → EReal := V c (Pipeline.arrRef spec3 5)
abbrev B1 (c : Dev nD) : S1x256.Idx → EReal := V c (Pipeline.arrRef spec3 6)

/-- What the output array ends holding: the two dense layers of every row. -/
def G (c : Dev nD) : S50000x256.Idx → EReal := fun i =>
  Cert.Dense.mlp (X V c) (A V c) (E V c (ix2 (0 : Fin 1) (0 : Fin 1))) (W0 V c) (fun k => B0 V c (ix2 (0 : Fin 1) k))
    (W1 V c) (fun k => B1 V c (ix2 (0 : Fin 1) k)) (i 0) (i 1)

/-- A row-blocked input window's block at point `t` is rows `2000 t + ·` of its array. -/
theorem iblk_0 (c : Dev nD) (t : Fin cfg3.N) (p : Fin 2000) (j : Fin 256) (r : Fin 50000) (hr : r.val = 2000 * t.val + p.val) :
    (iblk3 V c 0 t : S2000x256.Idx → EReal) (ix2 p j) = X V c (ix2 r j) := by
  obtain ⟨⟨e0, e1⟩, -⟩ := idx_facts t
  unfold iblk3
  rw [View.read_apply]
  refine congrArg (V c (Pipeline.arrRef spec3 0)) (funext fun a => Fin.ext ?_)
  match a with
  | ⟨0, _⟩ => show win3_0.index t (0 : Fin 2) * 2000 + 1 * p.val = r.val; omega
  | ⟨1, _⟩ => show win3_0.index t (1 : Fin 2) * 256 + 1 * j.val = j.val; omega

theorem iblk_1 (c : Dev nD) (t : Fin cfg3.N) (p : Fin 2000) (j : Fin 256) (r : Fin 50000) (hr : r.val = 2000 * t.val + p.val) :
    (iblk3 V c 1 t : S2000x256.Idx → EReal) (ix2 p j) = A V c (ix2 r j) := by
  obtain ⟨-, ⟨e0, e1⟩, -⟩ := idx_facts t
  unfold iblk3
  rw [View.read_apply]
  refine congrArg (V c (Pipeline.arrRef spec3 1)) (funext fun a => Fin.ext ?_)
  match a with
  | ⟨0, _⟩ => show win3_1.index t (0 : Fin 2) * 2000 + 1 * p.val = r.val; omega
  | ⟨1, _⟩ => show win3_1.index t (1 : Fin 2) * 256 + 1 * j.val = j.val; omega

/-- The other input windows' one block is their whole array. -/
theorem iblk_2 (c : Dev nD) (t : Fin cfg3.N) : (iblk3 V c 2 t : S1x1.Idx → EReal) = E V c := by
  obtain ⟨-, -, ⟨e0, e1⟩, -⟩ := idx_facts t
  funext y
  unfold iblk3
  rw [View.read_apply]
  refine congrArg (V c (Pipeline.arrRef spec3 2)) (funext fun a => Fin.ext ?_)
  match a with
  | ⟨0, _⟩ => show win3_2.index t (0 : Fin 2) * 1 + 1 * (y 0).val = (y 0).val; omega
  | ⟨1, _⟩ => show win3_2.index t (1 : Fin 2) * 1 + 1 * (y 1).val = (y 1).val; omega

theorem iblk_3 (c : Dev nD) (t : Fin cfg3.N) : (iblk3 V c 3 t : S256x256.Idx → EReal) = W0 V c := by
  obtain ⟨-, -, -, ⟨e0, e1⟩, -⟩ := idx_facts t
  funext y
  unfold iblk3
  rw [View.read_apply]
  refine congrArg (V c (Pipeline.arrRef spec3 3)) (funext fun a => Fin.ext ?_)
  match a with
  | ⟨0, _⟩ => show win3_3.index t (0 : Fin 2) * 256 + 1 * (y 0).val = (y 0).val; omega
  | ⟨1, _⟩ => show win3_3.index t (1 : Fin 2) * 256 + 1 * (y 1).val = (y 1).val; omega

theorem iblk_4 (c : Dev nD) (t : Fin cfg3.N) : (iblk3 V c 4 t : S1x256.Idx → EReal) = B0 V c := by
  obtain ⟨-, -, -, -, ⟨e0, e1⟩, -⟩ := idx_facts t
  funext y
  unfold iblk3
  rw [View.read_apply]
  refine congrArg (V c (Pipeline.arrRef spec3 4)) (funext fun a => Fin.ext ?_)
  match a with
  | ⟨0, _⟩ => show win3_4.index t (0 : Fin 2) * 1 + 1 * (y 0).val = (y 0).val; omega
  | ⟨1, _⟩ => show win3_4.index t (1 : Fin 2) * 256 + 1 * (y 1).val = (y 1).val; omega

theorem iblk_5 (c : Dev nD) (t : Fin cfg3.N) : (iblk3 V c 5 t : S256x256.Idx → EReal) = W1 V c := by
  obtain ⟨-, -, -, -, -, ⟨e0, e1⟩, -⟩ := idx_facts t
  funext y
  unfold iblk3
  rw [View.read_apply]
  refine congrArg (V c (Pipeline.arrRef spec3 5)) (funext fun a => Fin.ext ?_)
  match a with
  | ⟨0, _⟩ => show win3_5.index t (0 : Fin 2) * 256 + 1 * (y 0).val = (y 0).val; omega
  | ⟨1, _⟩ => show win3_5.index t (1 : Fin 2) * 256 + 1 * (y 1).val = (y 1).val; omega

theorem iblk_6 (c : Dev nD) (t : Fin cfg3.N) : (iblk3 V c 6 t : S1x256.Idx → EReal) = B1 V c := by
  obtain ⟨-, -, -, -, -, -, ⟨e0, e1⟩, -⟩ := idx_facts t
  funext y
  unfold iblk3
  rw [View.read_apply]
  refine congrArg (V c (Pipeline.arrRef spec3 6)) (funext fun a => Fin.ext ?_)
  match a with
  | ⟨0, _⟩ => show win3_6.index t (0 : Fin 2) * 1 + 1 * (y 0).val = (y 0).val; omega
  | ⟨1, _⟩ => show win3_6.index t (1 : Fin 2) * 256 + 1 * (y 1).val = (y 1).val; omega

/-- What point `t` writes back is block `t` of `G`. -/
theorem flushed_eq (c : Dev nD) (t : Fin cfg3.N) :
    (dat3 V c).flushed 7 t = ((cfg3.win 7).blk t).view.read (Elt Ideal) (G V c) := by
  show (cfg3.win 7).cut (grid3.coords t) ((dat3 V c).after 7 t) = _
  rw [after3_7]
  unfold out3_7
  rw [View.canon_unit_zero hz]
  simp only [View.ld_unit_zero (S := S1x1) hz, View.ld_unit_zero (S := S2000x256) hz, View.ld_unit_zero (S := S256x256) hz,
    View.ld_unit_zero (S := S1x256) hz, View.ld_unit_zero (S := S256x256) hz]
  obtain ⟨-, -, -, -, -, -, -, ⟨e0, e1⟩⟩ := idx_facts t
  have ht : t.val < 25 := Nat.lt_of_lt_of_eq t.isLt N_3
  funext y
  obtain ⟨p, q, rfl⟩ : ∃ (p : Fin 2000) (q : Fin 256), y = ix2 p q := ⟨y 0, y 1, eq_ix2 y⟩
  refine (pay_apply (iblk3 V c 2 t) (iblk3 V c 0 t) (iblk3 V c 1 t) (iblk3 V c 3 t) (iblk3 V c 4 t) (iblk3 V c 5 t) (iblk3 V c 6 t) p q).trans ?_
  rw [View.read_apply]
  have hr : 2000 * t.val + p.val < 50000 := by have := p.isLt; omega
  have hi : ((cfg3.win 7).blk t).view.emb (ix2 p q) = ix2 (⟨2000 * t.val + p.val, hr⟩ : Fin 50000) q := by
    funext a; apply Fin.ext
    match a with
    | ⟨0, _⟩ => show win3_7.index t (0 : Fin 2) * 2000 + 1 * p.val = 2000 * t.val + p.val; omega
    | ⟨1, _⟩ => show win3_7.index t (1 : Fin 2) * 256 + 1 * q.val = q.val; omega
  rw [hi]
  show _ = Cert.Dense.mlp (X V c) (A V c) (E V c (ix2 (0 : Fin 1) (0 : Fin 1))) (W0 V c) (fun k => B0 V c (ix2 (0 : Fin 1) k))
    (W1 V c) (fun k => B1 V c (ix2 (0 : Fin 1) k)) (⟨2000 * t.val + p.val, hr⟩ : Fin 50000) q
  exact Cert.Dense.mlp_congr q (fun j => iblk_0 V c t p j _ rfl) (fun j => iblk_1 V c t p j _ rfl)
    (congrFun (iblk_2 V c t) _) (iblk_3 V c t) (funext fun k => congrFun (iblk_4 V c t) _) (iblk_5 V c t)
    (funext fun k => congrFun (iblk_6 V c t) _)

/-- An index is in point `t`'s block of the output iff its row is among the block's 2000 rows. -/
theorem mem_blk (t : Fin cfg3.N) (i : S50000x256.Idx) :
    i ∈ ((cfg3.win 7).blk t).view.set ↔ ∀ a : Fin 2, win3_7.index t a * S2000x256.size a ≤ (i a).val ∧ (i a).val < win3_7.index t a * S2000x256.size a + S2000x256.size a := by
  show i ∈ ((View.whole main_v91).slice (win3_7.rect t)).set ↔ _
  rw [View.set_slice_whole, Rect.mem_set_unit]
  exact Iff.rfl

/-- Every row is in the block of the point `row / 2000`. -/
theorem cover (i : S50000x256.Idx) : ∃ t : Fin cfg3.N, (cfg3.win 7).flush t = true ∧ i ∈ ((cfg3.win 7).blk t).view.set := by
  have h0 : (i 0).val < 50000 := (i 0).isLt
  have h1 : (i 1).val < 256 := (i 1).isLt
  refine ⟨⟨(i 0).val / 2000, by rw [show cfg3.N = 25 from N_3]; omega⟩, flush3_7 _, ?_⟩
  rw [mem_blk]
  obtain ⟨-, -, -, -, -, -, -, ⟨e0, e1⟩⟩ := idx_facts (⟨(i 0).val / 2000, by rw [show cfg3.N = 25 from N_3]; omega⟩ : Fin cfg3.N)
  intro a
  match a with
  | ⟨0, _⟩ =>
    show win3_7.index _ (0 : Fin 2) * 2000 ≤ (i 0).val ∧ (i 0).val < win3_7.index _ (0 : Fin 2) * 2000 + 2000
    rw [e0]; show (i 0).val / 2000 * 2000 ≤ (i 0).val ∧ (i 0).val < (i 0).val / 2000 * 2000 + 2000; omega
  | ⟨1, _⟩ =>
    show win3_7.index _ (1 : Fin 2) * 256 ≤ (i 1).val ∧ (i 1).val < win3_7.index _ (1 : Fin 2) * 256 + 256
    rw [e1]; omega

/-- The output array after the launch. -/
theorem final (c : Dev nD) : (dat3 V c).arrAt 7 cfg3.N = G V c :=
  (dat3 V c).arrAt_eq_of_cover 7 (G V c) (fun t _ => flushed_eq V c t) (cover)

end Cert.KernelIdeal.Reg3

end
-- ==== Proof.KReg4.lean ====
import proofs.«160357_j59012850647687_1_alg».proof.Proof.Gen.KernelIdeal.Frame
import proofs.«160357_j59012850647687_1_alg».proof.Proof.LibDense
import Idealize.ShloMosaic.Lib.Pipeline.Value

/-!
# Launch 4: the output array it leaves, as one function of the arrays it finds

The launch runs over 25 blocks of 2000 rows. At block `t` the body reads rows `2000 t … 2000 t + 1999` of the node
features and of the aggregated messages, the whole of the scalar, both weight matrices and both bias rows, and
stores the two dense layers of those rows; the write-back puts them at the same rows of the output. The 25 row blocks
tile the 50000 rows, so the output array ends holding the two dense layers of every row.
-/

set_option maxRecDepth 16384

noncomputable section

namespace Cert.KernelIdeal.Reg4

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at row `p`, column `q` of the block: the two dense layers of the loaded blocks. -/
theorem pay_apply (v0 : Vec Ideal S1x1 .f32) (v4 v7 : Vec Ideal S2000x256 .f32) (v11 : Vec Ideal S256x256 .f32)
    (v15 : Vec Ideal S1x256 .f32) (v22 : Vec Ideal S256x256 .f32) (v26 : Vec Ideal S1x256 .f32) (p : Fin 2000) (q : Fin 256) :
    k4_pay1 (F := Ideal) v0 v4 v7 v11 v15 v22 v26 (ix2 p q)
      = Cert.Dense.mlp v4 v7 (v0 (ix2 (0 : Fin 1) (0 : Fin 1))) v11 (fun k => v15 (ix2 (0 : Fin 1) k)) v22 (fun k => v26 (ix2 (0 : Fin 1) k)) p q := by
  unfold k4_pay1
  simp only [shapeCast_self]
  exact Cert.Dense.vector_form_apply _ _ _ _ _ v0 v4 v7 v11 v15 v22 v26 p q

/-- The index maps over the grid: the row-blocked windows are at block row `t`, column 0; the others at (0, 0). -/
theorem idx_facts : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0)
    ∧ (win4_7.index t (0 : Fin 2) = t.val ∧ win4_7.index t (1 : Fin 2) = 0) :=
  (by decide +kernel : ∀ t : Fin grid4.N, _)

/-- The arrays the launch finds, by window. -/
abbrev X (c : Dev nD) : S50000x256.Idx → EReal := V c (Pipeline.arrRef spec4 0)
abbrev A (c : Dev nD) : S50000x256.Idx → EReal := V c (Pipeline.arrRef spec4 1)
abbrev E (c : Dev nD) : S1x1.Idx → EReal := V c (Pipeline.arrRef spec4 2)
abbrev W0 (c : Dev nD) : S256x256.Idx → EReal := V c (Pipeline.arrRef spec4 3)
abbrev B0 (c : Dev nD) : S1x256.Idx → EReal := V c (Pipeline.arrRef spec4 4)
abbrev W1 (c : Dev nD) : S256x256.Idx → EReal := V c (Pipeline.arrRef spec4 5)
abbrev B1 (c : Dev nD) : S1x256.Idx → EReal := V c (Pipeline.arrRef spec4 6)

/-- What the output array ends holding: the two dense layers of every row. -/
def G (c : Dev nD) : S50000x256.Idx → EReal := fun i =>
  Cert.Dense.mlp (X V c) (A V c) (E V c (ix2 (0 : Fin 1) (0 : Fin 1))) (W0 V c) (fun k => B0 V c (ix2 (0 : Fin 1) k))
    (W1 V c) (fun k => B1 V c (ix2 (0 : Fin 1) k)) (i 0) (i 1)

/-- A row-blocked input window's block at point `t` is rows `2000 t + ·` of its array. -/
theorem iblk_0 (c : Dev nD) (t : Fin cfg4.N) (p : Fin 2000) (j : Fin 256) (r : Fin 50000) (hr : r.val = 2000 * t.val + p.val) :
    (iblk4 V c 0 t : S2000x256.Idx → EReal) (ix2 p j) = X V c (ix2 r j) := by
  obtain ⟨⟨e0, e1⟩, -⟩ := idx_facts t
  unfold iblk4
  rw [View.read_apply]
  refine congrArg (V c (Pipeline.arrRef spec4 0)) (funext fun a => Fin.ext ?_)
  match a with
  | ⟨0, _⟩ => show win4_0.index t (0 : Fin 2) * 2000 + 1 * p.val = r.val; omega
  | ⟨1, _⟩ => show win4_0.index t (1 : Fin 2) * 256 + 1 * j.val = j.val; omega

theorem iblk_1 (c : Dev nD) (t : Fin cfg4.N) (p : Fin 2000) (j : Fin 256) (r : Fin 50000) (hr : r.val = 2000 * t.val + p.val) :
    (iblk4 V c 1 t : S2000x256.Idx → EReal) (ix2 p j) = A V c (ix2 r j) := by
  obtain ⟨-, ⟨e0, e1⟩, -⟩ := idx_facts t
  unfold iblk4
  rw [View.read_apply]
  refine congrArg (V c (Pipeline.arrRef spec4 1)) (funext fun a => Fin.ext ?_)
  match a with
  | ⟨0, _⟩ => show win4_1.index t (0 : Fin 2) * 2000 + 1 * p.val = r.val; omega
  | ⟨1, _⟩ => show win4_1.index t (1 : Fin 2) * 256 + 1 * j.val = j.val; omega

/-- The other input windows' one block is their whole array. -/
theorem iblk_2 (c : Dev nD) (t : Fin cfg4.N) : (iblk4 V c 2 t : S1x1.Idx → EReal) = E V c := by
  obtain ⟨-, -, ⟨e0, e1⟩, -⟩ := idx_facts t
  funext y
  unfold iblk4
  rw [View.read_apply]
  refine congrArg (V c (Pipeline.arrRef spec4 2)) (funext fun a => Fin.ext ?_)
  match a with
  | ⟨0, _⟩ => show win4_2.index t (0 : Fin 2) * 1 + 1 * (y 0).val = (y 0).val; omega
  | ⟨1, _⟩ => show win4_2.index t (1 : Fin 2) * 1 + 1 * (y 1).val = (y 1).val; omega

theorem iblk_3 (c : Dev nD) (t : Fin cfg4.N) : (iblk4 V c 3 t : S256x256.Idx → EReal) = W0 V c := by
  obtain ⟨-, -, -, ⟨e0, e1⟩, -⟩ := idx_facts t
  funext y
  unfold iblk4
  rw [View.read_apply]
  refine congrArg (V c (Pipeline.arrRef spec4 3)) (funext fun a => Fin.ext ?_)
  match a with
  | ⟨0, _⟩ => show win4_3.index t (0 : Fin 2) * 256 + 1 * (y 0).val = (y 0).val; omega
  | ⟨1, _⟩ => show win4_3.index t (1 : Fin 2) * 256 + 1 * (y 1).val = (y 1).val; omega

theorem iblk_4 (c : Dev nD) (t : Fin cfg4.N) : (iblk4 V c 4 t : S1x256.Idx → EReal) = B0 V c := by
  obtain ⟨-, -, -, -, ⟨e0, e1⟩, -⟩ := idx_facts t
  funext y
  unfold iblk4
  rw [View.read_apply]
  refine congrArg (V c (Pipeline.arrRef spec4 4)) (funext fun a => Fin.ext ?_)
  match a with
  | ⟨0, _⟩ => show win4_4.index t (0 : Fin 2) * 1 + 1 * (y 0).val = (y 0).val; omega
  | ⟨1, _⟩ => show win4_4.index t (1 : Fin 2) * 256 + 1 * (y 1).val = (y 1).val; omega

theorem iblk_5 (c : Dev nD) (t : Fin cfg4.N) : (iblk4 V c 5 t : S256x256.Idx → EReal) = W1 V c := by
  obtain ⟨-, -, -, -, -, ⟨e0, e1⟩, -⟩ := idx_facts t
  funext y
  unfold iblk4
  rw [View.read_apply]
  refine congrArg (V c (Pipeline.arrRef spec4 5)) (funext fun a => Fin.ext ?_)
  match a with
  | ⟨0, _⟩ => show win4_5.index t (0 : Fin 2) * 256 + 1 * (y 0).val = (y 0).val; omega
  | ⟨1, _⟩ => show win4_5.index t (1 : Fin 2) * 256 + 1 * (y 1).val = (y 1).val; omega

theorem iblk_6 (c : Dev nD) (t : Fin cfg4.N) : (iblk4 V c 6 t : S1x256.Idx → EReal) = B1 V c := by
  obtain ⟨-, -, -, -, -, -, ⟨e0, e1⟩, -⟩ := idx_facts t
  funext y
  unfold iblk4
  rw [View.read_apply]
  refine congrArg (V c (Pipeline.arrRef spec4 6)) (funext fun a => Fin.ext ?_)
  match a with
  | ⟨0, _⟩ => show win4_6.index t (0 : Fin 2) * 1 + 1 * (y 0).val = (y 0).val; omega
  | ⟨1, _⟩ => show win4_6.index t (1 : Fin 2) * 256 + 1 * (y 1).val = (y 1).val; omega

/-- What point `t` writes back is block `t` of `G`. -/
theorem flushed_eq (c : Dev nD) (t : Fin cfg4.N) :
    (dat4 V c).flushed 7 t = ((cfg4.win 7).blk t).view.read (Elt Ideal) (G V c) := by
  show (cfg4.win 7).cut (grid4.coords t) ((dat4 V c).after 7 t) = _
  rw [after4_7]
  unfold out4_7
  rw [View.canon_unit_zero hz]
  simp only [View.ld_unit_zero (S := S1x1) hz, View.ld_unit_zero (S := S2000x256) hz, View.ld_unit_zero (S := S256x256) hz,
    View.ld_unit_zero (S := S1x256) hz, View.ld_unit_zero (S := S256x256) hz]
  obtain ⟨-, -, -, -, -, -, -, ⟨e0, e1⟩⟩ := idx_facts t
  have ht : t.val < 25 := Nat.lt_of_lt_of_eq t.isLt N_4
  funext y
  obtain ⟨p, q, rfl⟩ : ∃ (p : Fin 2000) (q : Fin 256), y = ix2 p q := ⟨y 0, y 1, eq_ix2 y⟩
  refine (pay_apply (iblk4 V c 2 t) (iblk4 V c 0 t) (iblk4 V c 1 t) (iblk4 V c 3 t) (iblk4 V c 4 t) (iblk4 V c 5 t) (iblk4 V c 6 t) p q).trans ?_
  rw [View.read_apply]
  have hr : 2000 * t.val + p.val < 50000 := by have := p.isLt; omega
  have hi : ((cfg4.win 7).blk t).view.emb (ix2 p q) = ix2 (⟨2000 * t.val + p.val, hr⟩ : Fin 50000) q := by
    funext a; apply Fin.ext
    match a with
    | ⟨0, _⟩ => show win4_7.index t (0 : Fin 2) * 2000 + 1 * p.val = 2000 * t.val + p.val; omega
    | ⟨1, _⟩ => show win4_7.index t (1 : Fin 2) * 256 + 1 * q.val = q.val; omega
  rw [hi]
  show _ = Cert.Dense.mlp (X V c) (A V c) (E V c (ix2 (0 : Fin 1) (0 : Fin 1))) (W0 V c) (fun k => B0 V c (ix2 (0 : Fin 1) k))
    (W1 V c) (fun k => B1 V c (ix2 (0 : Fin 1) k)) (⟨2000 * t.val + p.val, hr⟩ : Fin 50000) q
  exact Cert.Dense.mlp_congr q (fun j => iblk_0 V c t p j _ rfl) (fun j => iblk_1 V c t p j _ rfl)
    (congrFun (iblk_2 V c t) _) (iblk_3 V c t) (funext fun k => congrFun (iblk_4 V c t) _) (iblk_5 V c t)
    (funext fun k => congrFun (iblk_6 V c t) _)

/-- An index is in point `t`'s block of the output iff its row is among the block's 2000 rows. -/
theorem mem_blk (t : Fin cfg4.N) (i : S50000x256.Idx) :
    i ∈ ((cfg4.win 7).blk t).view.set ↔ ∀ a : Fin 2, win4_7.index t a * S2000x256.size a ≤ (i a).val ∧ (i a).val < win4_7.index t a * S2000x256.size a + S2000x256.size a := by
  show i ∈ ((View.whole main_v115).slice (win4_7.rect t)).set ↔ _
  rw [View.set_slice_whole, Rect.mem_set_unit]
  exact Iff.rfl

/-- Every row is in the block of the point `row / 2000`. -/
theorem cover (i : S50000x256.Idx) : ∃ t : Fin cfg4.N, (cfg4.win 7).flush t = true ∧ i ∈ ((cfg4.win 7).blk t).view.set := by
  have h0 : (i 0).val < 50000 := (i 0).isLt
  have h1 : (i 1).val < 256 := (i 1).isLt
  refine ⟨⟨(i 0).val / 2000, by rw [show cfg4.N = 25 from N_4]; omega⟩, flush4_7 _, ?_⟩
  rw [mem_blk]
  obtain ⟨-, -, -, -, -, -, -, ⟨e0, e1⟩⟩ := idx_facts (⟨(i 0).val / 2000, by rw [show cfg4.N = 25 from N_4]; omega⟩ : Fin cfg4.N)
  intro a
  match a with
  | ⟨0, _⟩ =>
    show win4_7.index _ (0 : Fin 2) * 2000 ≤ (i 0).val ∧ (i 0).val < win4_7.index _ (0 : Fin 2) * 2000 + 2000
    rw [e0]; show (i 0).val / 2000 * 2000 ≤ (i 0).val ∧ (i 0).val < (i 0).val / 2000 * 2000 + 2000; omega
  | ⟨1, _⟩ =>
    show win4_7.index _ (1 : Fin 2) * 256 ≤ (i 1).val ∧ (i 1).val < win4_7.index _ (1 : Fin 2) * 256 + 256
    rw [e1]; omega

/-- The output array after the launch. -/
theorem final (c : Dev nD) : (dat4 V c).arrAt 7 cfg4.N = G V c :=
  (dat4 V c).arrAt_eq_of_cover 7 (G V c) (fun t _ => flushed_eq V c t) (cover)

end Cert.KernelIdeal.Reg4

end
-- ==== Proof.RefLayers.lean ====
import proofs.«160357_j59012850647687_1_alg».proof.Proof.Gen.ReferenceIdeal.Run
import proofs.«160357_j59012850647687_1_alg».proof.Proof.LibDense

/-!
# The reference program's result as five layers

Each layer of the reference gathers the source rows of its input along the edges (a negative source index counted
from the end), adds them into the destination rows, and passes `(1 + e) · h + aggregate` through two dense layers.
The definitions below spell one layer exactly as the program's operations compose; the result of the program's run
is then, by unfolding, the five layers one inside the other, and a layer read at an entry is the two-dense-layer
function of its input, its aggregate, its scalar and its weights.
-/

set_option maxRecDepth 16384

noncomputable section

namespace Cert.ReferenceIdeal.Layers

open Cert.ReferenceIdeal Cert.ReferenceIdeal.Gen Cert.ReferenceIdeal.Value
open Idealize.ShloMosaic Idealize.ShloMosaic.TcCoe Idealize.ShloMosaic.ValueIdx Idealize.SL.Sem Idealize.ShloMosaic.StableHlo

/-- The source node of every edge, as an index column; a negative index counts from the end. -/
def srcIdx (ei : IVec S2x800000 32) : IVec S800000x1 32 :=
  broadcastInDim S800000x1 ![0] bcast_S800000_S800000x1_0 (select (cmpi .slt (shapeCast _ (extractStridedSlice S1x800000 ![0, 0] ei slices_S2x800000_S1x800000_0_0) shapeCasts_S1x800000_S800000) (broadcastInDim S800000 ![] bcast_S_S800000 (constantI S_ 32 0#32))) (addi (shapeCast _ (extractStridedSlice S1x800000 ![0, 0] ei slices_S2x800000_S1x800000_0_0) shapeCasts_S1x800000_S800000) (broadcastInDim S800000 ![] bcast_S_S800000 (constantI S_ 32 50000#32))) (shapeCast _ (extractStridedSlice S1x800000 ![0, 0] ei slices_S2x800000_S1x800000_0_0) shapeCasts_S1x800000_S800000))

/-- The destination node of every edge, as an index column. -/
def dstIdx (ei : IVec S2x800000 32) : IVec S800000x1 32 :=
  broadcastInDim S800000x1 ![0] bcast_S800000_S800000x1_0 (shapeCast _ (extractStridedSlice S1x800000 ![1, 0] ei slices_S2x800000_S1x800000_1_0) shapeCasts_S1x800000_S800000)

/-- The rows of `h` at the edges' sources, added into the rows at the edges' destinations (128 columns). -/
def agg128 (h : FVec Ideal S50000x128 .f32) (ei : IVec S2x800000 32) : FVec Ideal S50000x128 .f32 :=
  Host.scatterAdd scatter_S50000x128_S800000x1_S800000x128_1_0_0_1 (broadcastInDim S50000x128 ![] bcast_S_S50000x128 (constant S_ .f32 0x00000000#32)) (dstIdx ei) (Host.gather gather_S50000x128_S800000x1_S800000x128_1_0_n_n_0_1_1128 h (srcIdx ei))

/-- The same for 256 columns. -/
def agg256 (h : FVec Ideal S50000x256 .f32) (ei : IVec S2x800000 32) : FVec Ideal S50000x256 .f32 :=
  Host.scatterAdd scatter_S50000x256_S800000x1_S800000x256_1_0_0_1 (broadcastInDim S50000x256 ![] bcast_S_S50000x256 (constant S_ .f32 0x00000000#32)) (dstIdx ei) (Host.gather gather_S50000x256_S800000x1_S800000x256_1_0_n_n_0_1_1256 h (srcIdx ei))

/-- The two dense layers of `(1 + e) · h + a`, 128 input columns. -/
def dense128 (h a : FVec Ideal S50000x128 .f32) (e : FVec Ideal S_ .f32) (w0 : FVec Ideal S256x128 .f32) (b0 : FVec Ideal S256 .f32)
    (w1 : FVec Ideal S256x256 .f32) (b1 : FVec Ideal S256 .f32) : FVec Ideal S50000x256 .f32 :=
  maximumf (addf (Host.dotGeneral dot_S50000x256_S256x256_S50000x256_1_0_0_1_n_n none (maximumf (addf (Host.dotGeneral dot_S50000x128_S128x256_S50000x256_1_0_0_1_n_n none (addf (mulf (broadcastInDim S50000x128 ![] bcast_S_S50000x128 (addf (constant S_ .f32 0x3F800000#32) e)) h) a) (transpose S128x256 [1, 0] w0 transposes_S256x128_S128x256_1_0)) (broadcastInDim S50000x256 ![0, 1] bcast_S1x256_S50000x256_0_1 (broadcastInDim S1x256 ![1] bcast_S256_S1x256_1 b0))) (broadcastInDim S50000x256 ![] bcast_S_S50000x256 (constant S_ .f32 0x00000000#32))) (transpose S256x256 [1, 0] w1 transposes_S256x256_S256x256_1_0)) (broadcastInDim S50000x256 ![0, 1] bcast_S1x256_S50000x256_0_1 (broadcastInDim S1x256 ![1] bcast_S256_S1x256_1 b1))) (broadcastInDim S50000x256 ![] bcast_S_S50000x256 (constant S_ .f32 0x00000000#32))

/-- The same, 256 input columns. -/
def dense256 (h a : FVec Ideal S50000x256 .f32) (e : FVec Ideal S_ .f32) (w0 : FVec Ideal S256x256 .f32) (b0 : FVec Ideal S256 .f32)
    (w1 : FVec Ideal S256x256 .f32) (b1 : FVec Ideal S256 .f32) : FVec Ideal S50000x256 .f32 :=
  maximumf (addf (Host.dotGeneral dot_S50000x256_S256x256_S50000x256_1_0_0_1_n_n none (maximumf (addf (Host.dotGeneral dot_S50000x256_S256x256_S50000x256_1_0_0_1_n_n none (addf (mulf (broadcastInDim S50000x256 ![] bcast_S_S50000x256 (addf (constant S_ .f32 0x3F800000#32) e)) h) a) (transpose S256x256 [1, 0] w0 transposes_S256x256_S256x256_1_0)) (broadcastInDim S50000x256 ![0, 1] bcast_S1x256_S50000x256_0_1 (broadcastInDim S1x256 ![1] bcast_S256_S1x256_1 b0))) (broadcastInDim S50000x256 ![] bcast_S_S50000x256 (constant S_ .f32 0x00000000#32))) (transpose S256x256 [1, 0] w1 transposes_S256x256_S256x256_1_0)) (broadcastInDim S50000x256 ![0, 1] bcast_S1x256_S50000x256_0_1 (broadcastInDim S1x256 ![1] bcast_S256_S1x256_1 b1))) (broadcastInDim S50000x256 ![] bcast_S_S50000x256 (constant S_ .f32 0x00000000#32))

/-- One layer: aggregate, then the two dense layers. -/
def layer128 (h : FVec Ideal S50000x128 .f32) (ei : IVec S2x800000 32) (e : FVec Ideal S_ .f32) (w0 : FVec Ideal S256x128 .f32) (b0 : FVec Ideal S256 .f32)
    (w1 : FVec Ideal S256x256 .f32) (b1 : FVec Ideal S256 .f32) : FVec Ideal S50000x256 .f32 :=
  dense128 h (agg128 h ei) e w0 b0 w1 b1

def layer256 (h : FVec Ideal S50000x256 .f32) (ei : IVec S2x800000 32) (e : FVec Ideal S_ .f32) (w0 : FVec Ideal S256x256 .f32) (b0 : FVec Ideal S256 .f32)
    (w1 : FVec Ideal S256x256 .f32) (b1 : FVec Ideal S256 .f32) : FVec Ideal S50000x256 .f32 :=
  dense256 h (agg256 h ei) e w0 b0 w1 b1

/-- Entry `k` of the five scalars, as a rank-0 array. -/
def eps0 (x : FVec Ideal S5 .f32) : FVec Ideal S_ .f32 := shapeCast _ (extractStridedSlice S1 ![0] x slices_S5_S1_0) shapeCasts_S1_S_
def eps1 (x : FVec Ideal S5 .f32) : FVec Ideal S_ .f32 := shapeCast _ (extractStridedSlice S1 ![1] x slices_S5_S1_1) shapeCasts_S1_S_
def eps2 (x : FVec Ideal S5 .f32) : FVec Ideal S_ .f32 := shapeCast _ (extractStridedSlice S1 ![2] x slices_S5_S1_2) shapeCasts_S1_S_
def eps3 (x : FVec Ideal S5 .f32) : FVec Ideal S_ .f32 := shapeCast _ (extractStridedSlice S1 ![3] x slices_S5_S1_3) shapeCasts_S1_S_
def eps4 (x : FVec Ideal S5 .f32) : FVec Ideal S_ .f32 := shapeCast _ (extractStridedSlice S1 ![4] x slices_S5_S1_4) shapeCasts_S1_S_

/-- Matrix `k` of a stack of four. -/
def mat0 (x : FVec Ideal S4x256x256 .f32) : FVec Ideal S256x256 .f32 := shapeCast _ (extractStridedSlice S1x256x256 ![0, 0, 0] x slices_S4x256x256_S1x256x256_0_0_0) shapeCasts_S1x256x256_S256x256
def mat1 (x : FVec Ideal S4x256x256 .f32) : FVec Ideal S256x256 .f32 := shapeCast _ (extractStridedSlice S1x256x256 ![1, 0, 0] x slices_S4x256x256_S1x256x256_1_0_0) shapeCasts_S1x256x256_S256x256
def mat2 (x : FVec Ideal S4x256x256 .f32) : FVec Ideal S256x256 .f32 := shapeCast _ (extractStridedSlice S1x256x256 ![2, 0, 0] x slices_S4x256x256_S1x256x256_2_0_0) shapeCasts_S1x256x256_S256x256
def mat3 (x : FVec Ideal S4x256x256 .f32) : FVec Ideal S256x256 .f32 := shapeCast _ (extractStridedSlice S1x256x256 ![3, 0, 0] x slices_S4x256x256_S1x256x256_3_0_0) shapeCasts_S1x256x256_S256x256

/-- Row `k` of a stack of four vectors. -/
def vec0 (x : FVec Ideal S4x256 .f32) : FVec Ideal S256 .f32 := shapeCast _ (extractStridedSlice S1x256 ![0, 0] x slices_S4x256_S1x256_0_0) shapeCasts_S1x256_S256
def vec1 (x : FVec Ideal S4x256 .f32) : FVec Ideal S256 .f32 := shapeCast _ (extractStridedSlice S1x256 ![1, 0] x slices_S4x256_S1x256_1_0) shapeCasts_S1x256_S256
def vec2 (x : FVec Ideal S4x256 .f32) : FVec Ideal S256 .f32 := shapeCast _ (extractStridedSlice S1x256 ![2, 0] x slices_S4x256_S1x256_2_0) shapeCasts_S1x256_S256
def vec3 (x : FVec Ideal S4x256 .f32) : FVec Ideal S256 .f32 := shapeCast _ (extractStridedSlice S1x256 ![3, 0] x slices_S4x256_S1x256_3_0) shapeCasts_S1x256_S256

/-- The five layers, one inside the other, of the eleven argument arrays. -/
def net (x : FVec Ideal S50000x128 .f32) (ei : IVec S2x800000 32) (es : FVec Ideal S5 .f32) (w0 : FVec Ideal S256x128 .f32) (b0 : FVec Ideal S256 .f32)
    (w1 : FVec Ideal S256x256 .f32) (b1 : FVec Ideal S256 .f32) (w0r : FVec Ideal S4x256x256 .f32) (b0r : FVec Ideal S4x256 .f32)
    (w1r : FVec Ideal S4x256x256 .f32) (b1r : FVec Ideal S4x256 .f32) : FVec Ideal S50000x256 .f32 :=
  layer256 (layer256 (layer256 (layer256 (layer128 x ei (eps0 es) w0 b0 w1 b1)
    ei (eps1 es) (mat0 w0r) (vec0 b0r) (mat0 w1r) (vec0 b1r))
    ei (eps2 es) (mat1 w0r) (vec1 b0r) (mat1 w1r) (vec1 b1r))
    ei (eps3 es) (mat2 w0r) (vec2 b0r) (mat2 w1r) (vec2 b1r))
    ei (eps4 es) (mat3 w0r) (vec3 b0r) (mat3 w1r) (vec3 b1r)

set_option maxHeartbeats 4000000 in
/-- The run's result term is the five layers of the launch contents of the arguments. -/
theorem res_eq (m : (ℓ : Loc nD τ sig) → Buf (Elt Ideal) ℓ) (c : Dev nD) :
    res_main_v175 (F := Ideal) m c = net (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) := by
  unfold res_main_v175 net layer256 layer128 dense256 dense128 agg256 agg128 srcIdx dstIdx eps0 eps1 eps2 eps3 eps4 mat0 mat1 mat2 mat3 vec0 vec1 vec2 vec3
  rfl

/-- The 128-column dense layers at an entry. -/
theorem dense128_apply (h a : FVec Ideal S50000x128 .f32) (e : FVec Ideal S_ .f32) (w0 : FVec Ideal S256x128 .f32) (b0 : FVec Ideal S256 .f32)
    (w1 : FVec Ideal S256x256 .f32) (b1 : FVec Ideal S256 .f32) (p : Fin 50000) (q : Fin 256) :
    dense128 h a e w0 b0 w1 b1 (ix2 p q) = Cert.Dense.mlp h a (e ix0) w0 (fun k => b0 (ix1 k)) w1 (fun k => b1 (ix1 k)) p q := by
  unfold dense128
  exact Cert.Dense.array_form_apply _ _ _ _ _ _ e h a w0 b0 w1 b1 p q

/-- The 256-column dense layers at an entry. -/
theorem dense256_apply (h a : FVec Ideal S50000x256 .f32) (e : FVec Ideal S_ .f32) (w0 : FVec Ideal S256x256 .f32) (b0 : FVec Ideal S256 .f32)
    (w1 : FVec Ideal S256x256 .f32) (b1 : FVec Ideal S256 .f32) (p : Fin 50000) (q : Fin 256) :
    dense256 h a e w0 b0 w1 b1 (ix2 p q) = Cert.Dense.mlp h a (e ix0) w0 (fun k => b0 (ix1 k)) w1 (fun k => b1 (ix1 k)) p q := by
  unfold dense256
  exact Cert.Dense.array_form_apply _ _ _ _ _ _ e h a w0 b0 w1 b1 p q

end Cert.ReferenceIdeal.Layers

end
-- ==== Proof.Bridge.lean ====
import proofs.«160357_j59012850647687_1_alg».proof.Proof.KRun
import proofs.«160357_j59012850647687_1_alg».proof.Proof.KHost
import proofs.«160357_j59012850647687_1_alg».proof.Proof.KReg0
import proofs.«160357_j59012850647687_1_alg».proof.Proof.KReg1
import proofs.«160357_j59012850647687_1_alg».proof.Proof.KReg2
import proofs.«160357_j59012850647687_1_alg».proof.Proof.KReg3
import proofs.«160357_j59012850647687_1_alg».proof.Proof.KReg4
import proofs.«160357_j59012850647687_1_alg».proof.Proof.RefLayers
import Idealize.ShloMosaic.Lib.ValueLayout

/-!
# The kernel program's result is the reference's five layers

Launch by launch: the arrays a launch finds are the previous launch's output, its aggregate by the same gather and
scatter-add the reference composes, the layer's scalar, weights and biases; the launch leaves the two dense layers of
every row; and one layer of the reference, read at an entry, is the same two dense layers. So each launch's output is
the reference's composition up to that layer, and the last launch's output is the whole of it.
-/

set_option maxRecDepth 16384

noncomputable section

namespace Cert.Bridge

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The reference's composition up to layer k, of the kernel program's launch contents. -/
def h1 (c : Dev nD) : S50000x256.Idx → EReal := Cert.ReferenceIdeal.Layers.layer128 (m ((c : Thread nD τ).loc main_arg0)) (m ((c : Thread nD τ).loc main_arg1)) (Cert.ReferenceIdeal.Layers.eps0 (m ((c : Thread nD τ).loc main_arg2))) (m ((c : Thread nD τ).loc main_arg3)) (m ((c : Thread nD τ).loc main_arg4)) (m ((c : Thread nD τ).loc main_arg5)) (m ((c : Thread nD τ).loc main_arg6))
def h2 (c : Dev nD) : S50000x256.Idx → EReal := Cert.ReferenceIdeal.Layers.layer256 (h1 m c) (m ((c : Thread nD τ).loc main_arg1)) (Cert.ReferenceIdeal.Layers.eps1 (m ((c : Thread nD τ).loc main_arg2))) (Cert.ReferenceIdeal.Layers.mat0 (m ((c : Thread nD τ).loc main_arg7))) (Cert.ReferenceIdeal.Layers.vec0 (m ((c : Thread nD τ).loc main_arg8))) (Cert.ReferenceIdeal.Layers.mat0 (m ((c : Thread nD τ).loc main_arg9))) (Cert.ReferenceIdeal.Layers.vec0 (m ((c : Thread nD τ).loc main_arg10)))
def h3 (c : Dev nD) : S50000x256.Idx → EReal := Cert.ReferenceIdeal.Layers.layer256 (h2 m c) (m ((c : Thread nD τ).loc main_arg1)) (Cert.ReferenceIdeal.Layers.eps2 (m ((c : Thread nD τ).loc main_arg2))) (Cert.ReferenceIdeal.Layers.mat1 (m ((c : Thread nD τ).loc main_arg7))) (Cert.ReferenceIdeal.Layers.vec1 (m ((c : Thread nD τ).loc main_arg8))) (Cert.ReferenceIdeal.Layers.mat1 (m ((c : Thread nD τ).loc main_arg9))) (Cert.ReferenceIdeal.Layers.vec1 (m ((c : Thread nD τ).loc main_arg10)))
def h4 (c : Dev nD) : S50000x256.Idx → EReal := Cert.ReferenceIdeal.Layers.layer256 (h3 m c) (m ((c : Thread nD τ).loc main_arg1)) (Cert.ReferenceIdeal.Layers.eps3 (m ((c : Thread nD τ).loc main_arg2))) (Cert.ReferenceIdeal.Layers.mat2 (m ((c : Thread nD τ).loc main_arg7))) (Cert.ReferenceIdeal.Layers.vec2 (m ((c : Thread nD τ).loc main_arg8))) (Cert.ReferenceIdeal.Layers.mat2 (m ((c : Thread nD τ).loc main_arg9))) (Cert.ReferenceIdeal.Layers.vec2 (m ((c : Thread nD τ).loc main_arg10)))
def h5 (c : Dev nD) : S50000x256.Idx → EReal := Cert.ReferenceIdeal.Layers.layer256 (h4 m c) (m ((c : Thread nD τ).loc main_arg1)) (Cert.ReferenceIdeal.Layers.eps4 (m ((c : Thread nD τ).loc main_arg2))) (Cert.ReferenceIdeal.Layers.mat3 (m ((c : Thread nD τ).loc main_arg7))) (Cert.ReferenceIdeal.Layers.vec3 (m ((c : Thread nD τ).loc main_arg8))) (Cert.ReferenceIdeal.Layers.mat3 (m ((c : Thread nD τ).loc main_arg9))) (Cert.ReferenceIdeal.Layers.vec3 (m ((c : Thread nD τ).loc main_arg10)))

/-- Launch 0's output array is layer 1 of the reference's composition. -/
theorem out0 (c : Dev nD) : W2 m ρ c (Proc.devRef .tc main_v19) = h1 m c := by
  refine (W2_arr m ρ c 7).trans ((Cert.KernelIdeal.Reg0.final (V1 m ρ) c).trans ?_)
  have hx : V1 m ρ c main_arg0 = (m ((c : Thread nD τ).loc main_arg0)) := Host.ent0_x m ρ c
  have ha : V1 m ρ c main_v13 = Cert.ReferenceIdeal.Layers.agg128 (m ((c : Thread nD τ).loc main_arg0)) (m ((c : Thread nD τ).loc main_arg1)) := by
    rw [Host.ent0_a]; rfl
  have he : V1 m ρ c main_v16 (ix2 (0 : Fin 1) (0 : Fin 1)) = Cert.ReferenceIdeal.Layers.eps0 (m ((c : Thread nD τ).loc main_arg2)) ix0 := by
    rw [Host.ent0_e]; exact Cert.Dense.shapeCast_scalar_11_apply _ _
  have hw0 : V1 m ρ c main_arg3 = (m ((c : Thread nD τ).loc main_arg3)) := Host.ent0_w0 m ρ c
  have hb0 : ∀ k : Fin 256, V1 m ρ c main_v17 (ix2 (0 : Fin 1) k) = (m ((c : Thread nD τ).loc main_arg4)) (ix1 k) := by
    intro k; rw [Host.ent0_b0]; exact shapeCast_a_1a_apply _ _ _ _
  have hw1 : V1 m ρ c main_arg5 = (m ((c : Thread nD τ).loc main_arg5)) := Host.ent0_w1 m ρ c
  have hb1 : ∀ k : Fin 256, V1 m ρ c main_v18 (ix2 (0 : Fin 1) k) = (m ((c : Thread nD τ).loc main_arg6)) (ix1 k) := by
    intro k; rw [Host.ent0_b1]; exact shapeCast_a_1a_apply _ _ _ _
  funext i
  obtain ⟨p, q, rfl⟩ : ∃ (p : Fin 50000) (q : Fin 256), i = ix2 p q := ⟨i 0, i 1, eq_ix2 i⟩
  refine Eq.trans ?_ (Cert.ReferenceIdeal.Layers.dense128_apply (m ((c : Thread nD τ).loc main_arg0)) (Cert.ReferenceIdeal.Layers.agg128 (m ((c : Thread nD τ).loc main_arg0)) (m ((c : Thread nD τ).loc main_arg1))) (Cert.ReferenceIdeal.Layers.eps0 (m ((c : Thread nD τ).loc main_arg2))) (m ((c : Thread nD τ).loc main_arg3)) (m ((c : Thread nD τ).loc main_arg4)) (m ((c : Thread nD τ).loc main_arg5)) (m ((c : Thread nD τ).loc main_arg6)) p q).symm
  exact Cert.Dense.mlp_congr q (fun j => congrFun hx _) (fun j => congrFun ha _) he hw0 (funext hb0) hw1 (funext hb1)

/-- Launch 1's output array is layer 2 of the reference's composition. -/
theorem out1 (c : Dev nD) : W4 m ρ c (Proc.devRef .tc main_v43) = h2 m c := by
  refine (W4_arr m ρ c 7).trans ((Cert.KernelIdeal.Reg1.final (V3 m ρ) c).trans ?_)
  have hx : V3 m ρ c main_v19 = h1 m c := (Host.ent1_x m ρ c).trans (out0 m ρ c)
  have ha : V3 m ρ c main_v29 = Cert.ReferenceIdeal.Layers.agg256 (h1 m c) (m ((c : Thread nD τ).loc main_arg1)) := by
    rw [Host.ent1_a, out0, Host.W2_v1, Host.W2_v3]; rfl
  have he : V3 m ρ c main_v32 (ix2 (0 : Fin 1) (0 : Fin 1)) = Cert.ReferenceIdeal.Layers.eps1 (m ((c : Thread nD τ).loc main_arg2)) ix0 := by
    rw [Host.ent1_e, Host.W2_arg2]; exact Cert.Dense.shapeCast_scalar_11_apply _ _
  have hw0 : V3 m ρ c main_v34 = Cert.ReferenceIdeal.Layers.mat0 (m ((c : Thread nD τ).loc main_arg7)) := by rw [Host.ent1_w0, Host.W2_arg7]; rfl
  have hb0 : ∀ k : Fin 256, V3 m ρ c main_v37 (ix2 (0 : Fin 1) k) = Cert.ReferenceIdeal.Layers.vec0 (m ((c : Thread nD τ).loc main_arg8)) (ix1 k) := by
    intro k; rw [Host.ent1_b0, Host.W2_arg8]; exact shapeCast_a_1a_apply _ _ _ _
  have hw1 : V3 m ρ c main_v39 = Cert.ReferenceIdeal.Layers.mat0 (m ((c : Thread nD τ).loc main_arg9)) := by rw [Host.ent1_w1, Host.W2_arg9]; rfl
  have hb1 : ∀ k : Fin 256, V3 m ρ c main_v42 (ix2 (0 : Fin 1) k) = Cert.ReferenceIdeal.Layers.vec0 (m ((c : Thread nD τ).loc main_arg10)) (ix1 k) := by
    intro k; rw [Host.ent1_b1, Host.W2_arg10]; exact shapeCast_a_1a_apply _ _ _ _
  funext i
  obtain ⟨p, q, rfl⟩ : ∃ (p : Fin 50000) (q : Fin 256), i = ix2 p q := ⟨i 0, i 1, eq_ix2 i⟩
  refine Eq.trans ?_ (Cert.ReferenceIdeal.Layers.dense256_apply (h1 m c) (Cert.ReferenceIdeal.Layers.agg256 (h1 m c) (m ((c : Thread nD τ).loc main_arg1))) (Cert.ReferenceIdeal.Layers.eps1 (m ((c : Thread nD τ).loc main_arg2))) (Cert.ReferenceIdeal.Layers.mat0 (m ((c : Thread nD τ).loc main_arg7))) (Cert.ReferenceIdeal.Layers.vec0 (m ((c : Thread nD τ).loc main_arg8))) (Cert.ReferenceIdeal.Layers.mat0 (m ((c : Thread nD τ).loc main_arg9))) (Cert.ReferenceIdeal.Layers.vec0 (m ((c : Thread nD τ).loc main_arg10))) p q).symm
  exact Cert.Dense.mlp_congr q (fun j => congrFun hx _) (fun j => congrFun ha _) he hw0 (funext hb0) hw1 (funext hb1)

/-- Launch 2's output array is layer 3 of the reference's composition. -/
theorem out2 (c : Dev nD) : W6 m ρ c (Proc.devRef .tc main_v67) = h3 m c := by
  refine (W6_arr m ρ c 7).trans ((Cert.KernelIdeal.Reg2.final (V5 m ρ) c).trans ?_)
  have hx : V5 m ρ c main_v43 = h2 m c := (Host.ent2_x m ρ c).trans (out1 m ρ c)
  have ha : V5 m ρ c main_v53 = Cert.ReferenceIdeal.Layers.agg256 (h2 m c) (m ((c : Thread nD τ).loc main_arg1)) := by
    rw [Host.ent2_a, out1, Host.W4_v1, Host.W4_v3]; rfl
  have he : V5 m ρ c main_v56 (ix2 (0 : Fin 1) (0 : Fin 1)) = Cert.ReferenceIdeal.Layers.eps2 (m ((c : Thread nD τ).loc main_arg2)) ix0 := by
    rw [Host.ent2_e, Host.W4_arg2]; exact Cert.Dense.shapeCast_scalar_11_apply _ _
  have hw0 : V5 m ρ c main_v58 = Cert.ReferenceIdeal.Layers.mat1 (m ((c : Thread nD τ).loc main_arg7)) := by rw [Host.ent2_w0, Host.W4_arg7]; rfl
  have hb0 : ∀ k : Fin 256, V5 m ρ c main_v61 (ix2 (0 : Fin 1) k) = Cert.ReferenceIdeal.Layers.vec1 (m ((c : Thread nD τ).loc main_arg8)) (ix1 k) := by
    intro k; rw [Host.ent2_b0, Host.W4_arg8]; exact shapeCast_a_1a_apply _ _ _ _
  have hw1 : V5 m ρ c main_v63 = Cert.ReferenceIdeal.Layers.mat1 (m ((c : Thread nD τ).loc main_arg9)) := by rw [Host.ent2_w1, Host.W4_arg9]; rfl
  have hb1 : ∀ k : Fin 256, V5 m ρ c main_v66 (ix2 (0 : Fin 1) k) = Cert.ReferenceIdeal.Layers.vec1 (m ((c : Thread nD τ).loc main_arg10)) (ix1 k) := by
    intro k; rw [Host.ent2_b1, Host.W4_arg10]; exact shapeCast_a_1a_apply _ _ _ _
  funext i
  obtain ⟨p, q, rfl⟩ : ∃ (p : Fin 50000) (q : Fin 256), i = ix2 p q := ⟨i 0, i 1, eq_ix2 i⟩
  refine Eq.trans ?_ (Cert.ReferenceIdeal.Layers.dense256_apply (h2 m c) (Cert.ReferenceIdeal.Layers.agg256 (h2 m c) (m ((c : Thread nD τ).loc main_arg1))) (Cert.ReferenceIdeal.Layers.eps2 (m ((c : Thread nD τ).loc main_arg2))) (Cert.ReferenceIdeal.Layers.mat1 (m ((c : Thread nD τ).loc main_arg7))) (Cert.ReferenceIdeal.Layers.vec1 (m ((c : Thread nD τ).loc main_arg8))) (Cert.ReferenceIdeal.Layers.mat1 (m ((c : Thread nD τ).loc main_arg9))) (Cert.ReferenceIdeal.Layers.vec1 (m ((c : Thread nD τ).loc main_arg10))) p q).symm
  exact Cert.Dense.mlp_congr q (fun j => congrFun hx _) (fun j => congrFun ha _) he hw0 (funext hb0) hw1 (funext hb1)

/-- Launch 3's output array is layer 4 of the reference's composition. -/
theorem out3 (c : Dev nD) : W8 m ρ c (Proc.devRef .tc main_v91) = h4 m c := by
  refine (W8_arr m ρ c 7).trans ((Cert.KernelIdeal.Reg3.final (V7 m ρ) c).trans ?_)
  have hx : V7 m ρ c main_v67 = h3 m c := (Host.ent3_x m ρ c).trans (out2 m ρ c)
  have ha : V7 m ρ c main_v77 = Cert.ReferenceIdeal.Layers.agg256 (h3 m c) (m ((c : Thread nD τ).loc main_arg1)) := by
    rw [Host.ent3_a, out2, Host.W6_v1, Host.W6_v3]; rfl
  have he : V7 m ρ c main_v80 (ix2 (0 : Fin 1) (0 : Fin 1)) = Cert.ReferenceIdeal.Layers.eps3 (m ((c : Thread nD τ).loc main_arg2)) ix0 := by
    rw [Host.ent3_e, Host.W6_arg2]; exact Cert.Dense.shapeCast_scalar_11_apply _ _
  have hw0 : V7 m ρ c main_v82 = Cert.ReferenceIdeal.Layers.mat2 (m ((c : Thread nD τ).loc main_arg7)) := by rw [Host.ent3_w0, Host.W6_arg7]; rfl
  have hb0 : ∀ k : Fin 256, V7 m ρ c main_v85 (ix2 (0 : Fin 1) k) = Cert.ReferenceIdeal.Layers.vec2 (m ((c : Thread nD τ).loc main_arg8)) (ix1 k) := by
    intro k; rw [Host.ent3_b0, Host.W6_arg8]; exact shapeCast_a_1a_apply _ _ _ _
  have hw1 : V7 m ρ c main_v87 = Cert.ReferenceIdeal.Layers.mat2 (m ((c : Thread nD τ).loc main_arg9)) := by rw [Host.ent3_w1, Host.W6_arg9]; rfl
  have hb1 : ∀ k : Fin 256, V7 m ρ c main_v90 (ix2 (0 : Fin 1) k) = Cert.ReferenceIdeal.Layers.vec2 (m ((c : Thread nD τ).loc main_arg10)) (ix1 k) := by
    intro k; rw [Host.ent3_b1, Host.W6_arg10]; exact shapeCast_a_1a_apply _ _ _ _
  funext i
  obtain ⟨p, q, rfl⟩ : ∃ (p : Fin 50000) (q : Fin 256), i = ix2 p q := ⟨i 0, i 1, eq_ix2 i⟩
  refine Eq.trans ?_ (Cert.ReferenceIdeal.Layers.dense256_apply (h3 m c) (Cert.ReferenceIdeal.Layers.agg256 (h3 m c) (m ((c : Thread nD τ).loc main_arg1))) (Cert.ReferenceIdeal.Layers.eps3 (m ((c : Thread nD τ).loc main_arg2))) (Cert.ReferenceIdeal.Layers.mat2 (m ((c : Thread nD τ).loc main_arg7))) (Cert.ReferenceIdeal.Layers.vec2 (m ((c : Thread nD τ).loc main_arg8))) (Cert.ReferenceIdeal.Layers.mat2 (m ((c : Thread nD τ).loc main_arg9))) (Cert.ReferenceIdeal.Layers.vec2 (m ((c : Thread nD τ).loc main_arg10))) p q).symm
  exact Cert.Dense.mlp_congr q (fun j => congrFun hx _) (fun j => congrFun ha _) he hw0 (funext hb0) hw1 (funext hb1)

/-- Launch 4's output array is layer 5 of the reference's composition. -/
theorem out4 (c : Dev nD) : W10 m ρ c (Proc.devRef .tc main_v115) = h5 m c := by
  refine (W10_arr m ρ c 7).trans ((Cert.KernelIdeal.Reg4.final (V9 m ρ) c).trans ?_)
  have hx : V9 m ρ c main_v91 = h4 m c := (Host.ent4_x m ρ c).trans (out3 m ρ c)
  have ha : V9 m ρ c main_v101 = Cert.ReferenceIdeal.Layers.agg256 (h4 m c) (m ((c : Thread nD τ).loc main_arg1)) := by
    rw [Host.ent4_a, out3, Host.W8_v1, Host.W8_v3]; rfl
  have he : V9 m ρ c main_v104 (ix2 (0 : Fin 1) (0 : Fin 1)) = Cert.ReferenceIdeal.Layers.eps4 (m ((c : Thread nD τ).loc main_arg2)) ix0 := by
    rw [Host.ent4_e, Host.W8_arg2]; exact Cert.Dense.shapeCast_scalar_11_apply _ _
  have hw0 : V9 m ρ c main_v106 = Cert.ReferenceIdeal.Layers.mat3 (m ((c : Thread nD τ).loc main_arg7)) := by rw [Host.ent4_w0, Host.W8_arg7]; rfl
  have hb0 : ∀ k : Fin 256, V9 m ρ c main_v109 (ix2 (0 : Fin 1) k) = Cert.ReferenceIdeal.Layers.vec3 (m ((c : Thread nD τ).loc main_arg8)) (ix1 k) := by
    intro k; rw [Host.ent4_b0, Host.W8_arg8]; exact shapeCast_a_1a_apply _ _ _ _
  have hw1 : V9 m ρ c main_v111 = Cert.ReferenceIdeal.Layers.mat3 (m ((c : Thread nD τ).loc main_arg9)) := by rw [Host.ent4_w1, Host.W8_arg9]; rfl
  have hb1 : ∀ k : Fin 256, V9 m ρ c main_v114 (ix2 (0 : Fin 1) k) = Cert.ReferenceIdeal.Layers.vec3 (m ((c : Thread nD τ).loc main_arg10)) (ix1 k) := by
    intro k; rw [Host.ent4_b1, Host.W8_arg10]; exact shapeCast_a_1a_apply _ _ _ _
  funext i
  obtain ⟨p, q, rfl⟩ : ∃ (p : Fin 50000) (q : Fin 256), i = ix2 p q := ⟨i 0, i 1, eq_ix2 i⟩
  refine Eq.trans ?_ (Cert.ReferenceIdeal.Layers.dense256_apply (h4 m c) (Cert.ReferenceIdeal.Layers.agg256 (h4 m c) (m ((c : Thread nD τ).loc main_arg1))) (Cert.ReferenceIdeal.Layers.eps4 (m ((c : Thread nD τ).loc main_arg2))) (Cert.ReferenceIdeal.Layers.mat3 (m ((c : Thread nD τ).loc main_arg7))) (Cert.ReferenceIdeal.Layers.vec3 (m ((c : Thread nD τ).loc main_arg8))) (Cert.ReferenceIdeal.Layers.mat3 (m ((c : Thread nD τ).loc main_arg9))) (Cert.ReferenceIdeal.Layers.vec3 (m ((c : Thread nD τ).loc main_arg10))) p q).symm
  exact Cert.Dense.mlp_congr q (fun j => congrFun hx _) (fun j => congrFun ha _) he hw0 (funext hb0) hw1 (funext hb1)

/-- The result array of the kernel program's run: the reference's five layers of the launch contents. -/
theorem result_eq (c : Dev nD) : W10 m ρ c (Proc.devRef .tc main_v115)
    = Cert.ReferenceIdeal.Layers.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  out4 m ρ c

end Cert.Bridge

end
-- ==== Proof.lean ====
/-
  The claim: the kernel program (five launches of a fused "scaled skip + aggregate, two dense layers" body among
  gathers and scatter-adds over the edge list) against the reference (the same five layers as array operations).

  On the extended reals both compute, layer by layer and for every node row p and output column q,
    max (Σ_k max (Σ_j ((1 + e) · h (p, j) + aggr (p, j)) · w0 (k, j) + b0 k) 0 · w1 (q, k) + b1 q) 0,
  with aggr the rows of h at the edges' sources added into the rows at the edges' destinations — the same gather and
  scatter-add on both sides, never opened. The kernel's narrowing casts are the identity there, its matrix products
  into a zero accumulator are the plain sums the reference's contractions are, and its 25 row blocks tile the rows.
  No law used needs finiteness (sums are re-indexed, never distributed over), so the precondition is not opened.

  The three frames are the generated frame runs (the reference's is its run with the result dropped); the ideal pass
  rewrote nothing, so its conjunct is trivial.
-/
import proofs.«160357_j59012850647687_1_alg».proof.Defs
import proofs.«160357_j59012850647687_1_alg».proof.Proof.Gen.Kernel
import proofs.«160357_j59012850647687_1_alg».proof.Proof.Gen.Kernel.Skeleton
import proofs.«160357_j59012850647687_1_alg».proof.Proof.Gen.Kernel.Launch
import proofs.«160357_j59012850647687_1_alg».proof.Proof.Gen.Kernel.Points
import proofs.«160357_j59012850647687_1_alg».proof.Proof.Gen.Kernel.Frame
import proofs.«160357_j59012850647687_1_alg».proof.Proof.Gen.KernelIdeal
import proofs.«160357_j59012850647687_1_alg».proof.Proof.Gen.KernelIdeal.Skeleton
import proofs.«160357_j59012850647687_1_alg».proof.Proof.Gen.KernelIdeal.Launch
import proofs.«160357_j59012850647687_1_alg».proof.Proof.Gen.KernelIdeal.Points
import proofs.«160357_j59012850647687_1_alg».proof.Proof.Gen.KernelIdeal.Frame
import proofs.«160357_j59012850647687_1_alg».proof.Proof.Gen.ReferenceIdeal
import proofs.«160357_j59012850647687_1_alg».proof.Proof.Gen.ReferenceIdeal.Run
import proofs.«160357_j59012850647687_1_alg».proof.Proof.Gen.Pre_finite_inputs
import proofs.«160357_j59012850647687_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at the five layers of the (agreeing) argument arrays. -/
theorem algebraic : Cert.algebraic_KernelIdeal_ReferenceIdeal := by
  intro m ρ m' ρ' _ hagree
  refine ⟨fun c => Cert.ReferenceIdeal.Layers.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono (fun r h c => ⟨(h c).1.trans (Cert.Bridge.result_eq m ρ c), (h c).2⟩)
      (Cert.KernelIdeal.RunAll.run_named m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10⟩ := hagree c
    rw [Cert.ReferenceIdeal.Layers.res_eq, e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
